-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  IdealRules.named_const.Statement Cert.KernelIdeal.κ "inv_sqrt_d" .f32 0x3DB504F3#32 ((1048576 / 11863283 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x128 : Shape := ⟨2, ![500000, 128]⟩
abbrev S4096 : Shape := ⟨1, ![4096]⟩
abbrev S500000 : Shape := ⟨1, ![500000]⟩
abbrev S128x128 : Shape := ⟨2, ![128, 128]⟩
abbrev S128 : Shape := ⟨1, ![128]⟩
abbrev S128x2 : Shape := ⟨2, ![128, 2]⟩
abbrev S_ : Shape := ⟨0, ![]⟩

class Facts : Prop where
  bcast_S_S500000x128 : S_.BroadcastsInDim S500000x128 (![] : Fin 0 → Fin S500000x128.rank)
  reducesTo_S500000x128_S_d0_1 : S500000x128.ReducesTo [0, 1] S_
  h_S_ : 0 < S_.numel
  bcast_S_S4096 : S_.BroadcastsInDim S4096 (![] : Fin 0 → Fin S4096.rank)
  reducesTo_S4096_S_d0 : S4096.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x2 : S_.BroadcastsInDim S128x2 (![] : Fin 0 → Fin S128x2.rank)
  reducesTo_S128x2_S_d0_1 : S128x2.ReducesTo [0, 1] S_

variable [Facts]

def fn_part3 {F : FTy → Type} [FloatOps F] (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  main_v53

def fn_part2 {F : FTy → Type} [FloatOps F] (main_arg8 : FVec F S128 .f32) (main_arg9 : FVec F S128x128 .f32) (main_arg10 : FVec F S128 .f32) (main_arg11 : FVec F S128x128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg11
  let main_cst_18 : FVec F S_ .f32 := constant S_ .f32 0x7F800000#32
  let main_v50 : FVec F S128x128 .f32 := broadcastInDim S128x128 ![] bcast_S_S128x128 main_cst_18
  fn_part3 (F := F) main_v48 main_v49 main_v50

def fn_part1 {F : FTy → Type} [FloatOps F] (main_arg5 : FVec F S128x2 .f32) (main_arg6 : FVec F S128x2 .f32) (main_arg7 : FVec F S128x128 .f32) (main_arg8 : FVec F S128 .f32) (main_arg9 : FVec F S128x128 .f32) (main_arg10 : FVec F S128 .f32) (main_arg11 : FVec F S128x128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x2 .f32 := Host.absf main_arg5
  let main_cst_6 : FVec F S_ .f32 := constant S_ .f32 0x7F800000#32
  let main_v20 : FVec F S128x2 .f32 := broadcastInDim S128x2 ![] bcast_S_S128x2 main_cst_6
  let main_v21 : IVec S128x2 1 := cmpf .olt main_v19 main_v20
  let main_c_7 : IVec S_ 1 := constantI S_ 1 1#1
  let main_v22 : IVec S_ 1 := (fun x v => Host.reduce IntOp.andi x v reducesTo_S128x2_S_d0_1 h_S_) main_v21 main_c_7
  let main_v23 : IVec S_ 1 := andi main_v18 main_v22
  let main_v24 : FVec F S128x2 .f32 := Host.absf main_arg6
  let main_cst_8 : FVec F S_ .f32 := constant S_ .f32 0x7F800000#32
  let main_v25 : FVec F S128x2 .f32 := broadcastInDim S128x2 ![] bcast_S_S128x2 main_cst_8
  let main_v26 : IVec S128x2 1 := cmpf .olt main_v24 main_v25
  let main_c_9 : IVec S_ 1 := constantI S_ 1 1#1
  let main_v27 : IVec S_ 1 := (fun x v => Host.reduce IntOp.andi x v reducesTo_S128x2_S_d0_1 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_arg11 main_v33

def fn {F : FTy → Type} [FloatOps F] (main_arg0 : FVec F S500000x128 .f32) (main_arg1 : FVec F S4096 .f32) (main_arg2 : IVec S500000 32) (main_arg3 : FVec F S128x128 .f32) (main_arg4 : FVec F S128 .f32) (main_arg5 : FVec F S128x2 .f32) (main_arg6 : FVec F S128x2 .f32) (main_arg7 : FVec F S128x128 .f32) (main_arg8 : FVec F S128 .f32) (main_arg9 : FVec F S128x128 .f32) (main_arg10 : FVec F S128 .f32) (main_arg11 : FVec F S128x128 .f32) : IVec S_ 1 :=
  let main_v0 : FVec F S500000x128 .f32 := Host.absf main_arg0
  let main_cst : FVec F S_ .f32 := constant S_ .f32 0x7F800000#32
  let main_v1 : FVec F S500000x128 .f32 := broadcastInDim S500000x128 ![] bcast_S_S500000x128 main_cst
  let main_v2 : IVec S500000x128 1 := cmpf .olt main_v0 main_v1
  let main_c : IVec S_ 1 := constantI S_ 1 1#1
  let main_v3 : IVec S_ 1 := (fun x v => Host.reduce IntOp.andi x v reducesTo_S500000x128_S_d0_1 h_S_) main_v2 main_c
  let main_v4 : FVec F S4096 .f32 := Host.absf main_arg1
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_v13 main_v16
-- ==== Kernel.lean ====
abbrev S500000x128 : Shape := ⟨2, ![500000, 128]⟩
abbrev S4096 : Shape := ⟨1, ![4096]⟩
abbrev S500000 : Shape := ⟨1, ![500000]⟩
abbrev S128x128 : Shape := ⟨2, ![128, 128]⟩
abbrev S128 : Shape := ⟨1, ![128]⟩
abbrev S128x2 : Shape := ⟨2, ![128, 2]⟩
abbrev S4096x1 : Shape := ⟨2, ![4096, 1]⟩
abbrev S4096x2 : Shape := ⟨2, ![4096, 2]⟩
abbrev S_ : Shape := ⟨0, ![]⟩
abbrev S500000x1 : Shape := ⟨2, ![500000, 1]⟩
abbrev S500000x2 : Shape := ⟨2, ![500000, 2]⟩
abbrev S503808x2 : Shape := ⟨2, ![503808, 2]⟩
abbrev S503808x128 : Shape := ⟨2, ![503808, 128]⟩
abbrev S2x128 : Shape := ⟨2, ![2, 128]⟩
abbrev S503808 : Shape := ⟨1, ![503808]⟩
abbrev S4096x128 : Shape := ⟨2, ![4096, 128]⟩
abbrev S1x128 : Shape := ⟨2, ![1, 128]⟩

abbrev nBuf : Space → Nat
  | .hbm => 83
  | .vmem => 23
  | .smem => 0
  | _ => 0

abbrev bufTy : (tb : Table) → Fin (tcTables nBuf tb) → BufTy
  | .hbm, ⟨0, _⟩ => ⟨S500000x128, .f32⟩
  | .hbm, ⟨1, _⟩ => ⟨S4096, .f32⟩
  | .hbm, ⟨2, _⟩ => ⟨S500000, .i32⟩
  | .hbm, ⟨3, _⟩ => ⟨S128x128, .f32⟩
  | .hbm, ⟨4, _⟩ => ⟨S128, .f32⟩
  | .hbm, ⟨5, _⟩ => ⟨S128x2, .f32⟩
  | .hbm, ⟨6, _⟩ => ⟨S128x2, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S4096, .f32⟩
  | .hbm, ⟨13, _⟩ => ⟨S4096x1, .f32⟩
  | .hbm, ⟨14, _⟩ => ⟨S4096x1, .f32⟩
  | .hbm, ⟨15, _⟩ => ⟨S4096x2, .f32⟩
  | .hbm, ⟨16, _⟩ => ⟨S_, .f32⟩
  | .hbm, ⟨17, _⟩ => ⟨S4096x2, .f32⟩
  | .hbm, ⟨18, _⟩ => ⟨S4096x2, .f32⟩
  | .hbm, ⟨19, _⟩ => ⟨S_, .f32⟩
  | .hbm, ⟨20, _⟩ => ⟨S4096x2, .f32⟩
  | .hbm, ⟨21, _⟩ => ⟨S4096x2, .f32⟩
  | .hbm, ⟨22, _⟩ => ⟨S4096x2, .f32⟩
  | .hbm, ⟨23, _⟩ => ⟨S_, .i32⟩
  | .hbm, ⟨24, _⟩ => ⟨S500000, .i32⟩
  | .hbm, ⟨25, _⟩ => ⟨S500000, .i1⟩
  | .hbm, ⟨26, _⟩ => ⟨S_, .i32⟩
  | .hbm, ⟨27, _⟩ => ⟨S500000, .i32⟩
  | .hbm, ⟨28, _⟩ => ⟨S500000, .i32⟩
  | .hbm, ⟨29, _⟩ => ⟨S500000, .i32⟩
  | .hbm, ⟨30, _⟩ => ⟨S500000x1, .i32⟩
  | .hbm, ⟨31, _⟩ => ⟨S500000x2, .f32⟩
  | .hbm, ⟨32, _⟩ => ⟨S_, .i32⟩
  | .hbm, ⟨33, _⟩ => ⟨S500000, .i32⟩
  | .hbm, ⟨34, _⟩ => ⟨S500000, .i1⟩
  | .hbm, ⟨35, _⟩ => ⟨S_, .i32⟩
  | .hbm, ⟨36, _⟩ => ⟨S500000, .i32⟩
  | .hbm, ⟨37, _⟩ => ⟨S500000, .i32⟩
  | .hbm, ⟨38, _⟩ => ⟨S500000, .i32⟩
  | .hbm, ⟨39, _⟩ => ⟨S500000x1, .i32⟩
  | .hbm, ⟨40, _⟩ => ⟨S500000x2, .f32⟩
  | .hbm, ⟨41, _⟩ => ⟨S_, .i32⟩
  | .hbm, ⟨42, _⟩ => ⟨S_, .f32⟩
  | .hbm, ⟨43, _⟩ => ⟨S503808x2, .f32⟩
  | .hbm, ⟨44, _⟩ => ⟨S_, .i32⟩
  | .hbm, ⟨45, _⟩ => ⟨S_, .f32⟩
  | .hbm, ⟨46, _⟩ => ⟨S503808x2, .f32⟩
  | .hbm, ⟨47, _⟩ => ⟨S_, .i32⟩
  | .hbm, ⟨48, _⟩ => ⟨S_, .f32⟩
  | .hbm, ⟨49, _⟩ => ⟨S503808x128, .f32⟩
  | .hbm, ⟨50, _⟩ => ⟨S2x128, .f32⟩
  | .hbm, ⟨51, _⟩ => ⟨S2x128, .f32⟩
  | .hbm, ⟨52, _⟩ => ⟨S128x128, .f32⟩
  | .hbm, ⟨53, _⟩ => ⟨S128x128, .bf16⟩
  | .hbm, ⟨54, _⟩ => ⟨S128x128, .f32⟩
  | .hbm, ⟨55, _⟩ => ⟨S128x128, .bf16⟩
  | .hbm, ⟨56, _⟩ => ⟨S128x128, .f32⟩
  | .hbm, ⟨57, _⟩ => ⟨S128x128, .bf16⟩
  | .hbm, ⟨58, _⟩ => ⟨S128x128, .f32⟩
  | .hbm, ⟨59, _⟩ => ⟨S128x128, .bf16⟩
  | .hbm, ⟨60, _⟩ => ⟨S503808, .f32⟩
  | .hbm, ⟨61, _⟩ => ⟨S500000, .f32⟩
  | .hbm, ⟨62, _⟩ => ⟨S_, .f32⟩
  | .hbm, ⟨63, _⟩ => ⟨S4096, .f32⟩
  | .hbm, ⟨64, _⟩ => ⟨S500000x1, .i32⟩
  | .hbm, ⟨65, _⟩ => ⟨S4096, .f32⟩
  | .hbm, ⟨66, _⟩ => ⟨S_, .i32⟩
  | .hbm, ⟨67, _⟩ => ⟨S500000, .i32⟩
  | .hbm, ⟨68, _⟩ => ⟨S500000, .i1⟩
  | .hbm, ⟨69, _⟩ => ⟨S_, .i32⟩
  | .hbm, ⟨70, _⟩ => ⟨S500000, .i32⟩
  | .hbm, ⟨71, _⟩ => ⟨S500000, .i32⟩
  | .hbm, ⟨72, _⟩ => ⟨S500000, .i32⟩
  | .hbm, ⟨73, _⟩ => ⟨S500000x1, .i32⟩
  | .hbm, ⟨74, _⟩ => ⟨S500000, .f32⟩
  | .hbm, ⟨75, _⟩ => ⟨S_, .i32⟩
  | .hbm, ⟨76, _⟩ => ⟨S_, .f32⟩
  | .hbm, ⟨77, _⟩ => ⟨S503808, .f32⟩
  | .hbm, ⟨78, _⟩ => ⟨S_, .i32⟩
  | .hbm, ⟨79, _⟩ => ⟨S_, .f32⟩
  | .hbm, ⟨80, _⟩ => ⟨S503808, .f32⟩
  | .hbm, ⟨81, _⟩ => ⟨S503808x128, .f32⟩
  | .hbm, ⟨82, _⟩ => ⟨S500000x128, .f32⟩
  | .local _ .vmem, ⟨0, _⟩ => ⟨S4096x128, .f32⟩
  | .local _ .vmem, ⟨1, _⟩ => ⟨S4096x128, .f32⟩
  | .local _ .vmem, ⟨2, _⟩ => ⟨S4096x2, .f32⟩
  | .local _ .vmem, ⟨3, _⟩ => ⟨S4096x2, .f32⟩
  | .local _ .vmem, ⟨4, _⟩ => ⟨S128x128, .bf16⟩
  | .local _ .vmem, ⟨5, _⟩ => ⟨S128, .f32⟩
  | .local _ .vmem, ⟨6, _⟩ => ⟨S2x128, .f32⟩
  | .local _ .vmem, ⟨7, _⟩ => ⟨S4096, .f32⟩
  | .local _ .vmem, ⟨8, _⟩ => ⟨S4096, .f32⟩
  | .local _ .vmem, ⟨9, _⟩ => ⟨S4096, .f32⟩
  | .local _ .vmem, ⟨10, _⟩ => ⟨S4096, .f32⟩
  | .local _ .vmem, ⟨11, _⟩ => ⟨S4096, .f32⟩
  | .local _ .vmem, ⟨12, _⟩ => ⟨S4096, .f32⟩
  | .local _ .vmem, ⟨13, _⟩ => ⟨S4096x2, .f32⟩
  | .local _ .vmem, ⟨14, _⟩ => ⟨S4096x2, .f32⟩
  | .local _ .vmem, ⟨15, _⟩ => ⟨S2x128, .f32⟩
  | .local _ .vmem, ⟨16, _⟩ => ⟨S128x128, .bf16⟩
  | .local _ .vmem, ⟨17, _⟩ => ⟨S128, .f32⟩
  | .local _ .vmem, ⟨18, _⟩ => ⟨S128x128, .bf16⟩
  | .local _ .vmem, ⟨19, _⟩ => ⟨S128, .f32⟩
  | .local _ .vmem, ⟨20, _⟩ => ⟨S128x128, .bf16⟩
  | .local _ .vmem, ⟨21, _⟩ => ⟨S4096x128, .f32⟩
  | .local _ .vmem, ⟨22, _⟩ => ⟨S4096x128, .f32⟩
  | _, _ => ⟨S500000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_call0_cst : Ref sig .tc := ⟨.hbm, 16, rfl⟩
abbrev main_call0_v0 : Ref sig .tc := ⟨.hbm, 17, rfl⟩
abbrev main_v4 : Ref sig .tc := ⟨.hbm, 18, rfl⟩
abbrev main_cst : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_c : Ref sig .tc := ⟨.hbm, 23, rfl⟩
abbrev main_v8 : Ref sig .tc := ⟨.hbm, 24, rfl⟩
abbrev main_v9 : Ref sig .tc := ⟨.hbm, 25, rfl⟩
abbrev main_c_0 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_c_1 : Ref sig .tc := ⟨.hbm, 32, rfl⟩
abbrev main_v15 : Ref sig .tc := ⟨.hbm, 33, rfl⟩
abbrev main_v16 : Ref sig .tc := ⟨.hbm, 34, rfl⟩
abbrev main_c_2 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_3 : Ref sig .tc := ⟨.hbm, 41, rfl⟩
abbrev main_call1_v0 : Ref sig .tc := ⟨.hbm, 42, rfl⟩
abbrev main_v22 : Ref sig .tc := ⟨.hbm, 43, rfl⟩
abbrev main_c_4 : Ref sig .tc := ⟨.hbm, 44, rfl⟩
abbrev main_call2_v0 : Ref sig .tc := ⟨.hbm, 45, rfl⟩
abbrev main_v23 : Ref sig .tc := ⟨.hbm, 46, rfl⟩
abbrev main_c_5 : Ref sig .tc := ⟨.hbm, 47, rfl⟩
abbrev main_call3_v0 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_cst_6 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_c_7 : Ref sig .tc := ⟨.hbm, 66, rfl⟩
abbrev main_v40 : Ref sig .tc := ⟨.hbm, 67, rfl⟩
abbrev main_v41 : Ref sig .tc := ⟨.hbm, 68, rfl⟩
abbrev main_c_8 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_c_9 : Ref sig .tc := ⟨.hbm, 75, rfl⟩
abbrev main_call4_v0 : Ref sig .tc := ⟨.hbm, 76, rfl⟩
abbrev main_v47 : Ref sig .tc := ⟨.hbm, 77, rfl⟩
abbrev main_c_10 : Ref sig .tc := ⟨.hbm, 78, rfl⟩
abbrev main_call5_v0 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg8_0 : Ref sig .tc := ⟨.vmem, 20, rfl⟩
abbrev cc1_stg9_0 : Ref sig .tc := ⟨.vmem, 21, rfl⟩
abbrev cc1_stg9_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem8_0 : DmaSem sig := 20
abbrev cc1_sem9_0 : DmaSem sig := 21
abbrev cc1_sem9_1 : DmaSem sig := 22

abbrev nD : Nat := 1
abbrev τ : Topo := Topo.v7x

variable {F : FTy → Type} [FloatOps F]

abbrev grid0 : Pipeline.Grid := ⟨1, ![123], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![123], ![false]⟩

def cc1_transform_0 (i : grid1.Coords) : Fin 1 → Nat :=
  let arg0 : BitVec 32 := BitVec.ofNat 32 (i 0).val
  let c0_i32 : BitVec 32 := 0#32
  ![arg0.toNat]

def cc1_transform_1 (i : grid1.Coords) : Fin 1 → Nat :=
  let arg0 : BitVec 32 := BitVec.ofNat 32 (i 0).val
  let c0_i32 : BitVec 32 := 0#32
  ![arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4096x2 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S2x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x128 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128x128 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S4096x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  bcast_S4096_S4096x1_0 : S4096.BroadcastsInDim S4096x1 (![0] : Fin 1 → Fin S4096x1.rank)
  concatenates_S4096x1_S4096x1_S4096x2_d1 : Shape.Concatenates [S4096x1, S4096x1] S4096x2 1
  bcast_S_S4096x2 : S_.BroadcastsInDim S4096x2 (![] : Fin 0 → Fin S4096x2.rank)
  bcast_S_S500000 : S_.BroadcastsInDim S500000 (![] : Fin 0 → Fin S500000.rank)
  bcast_S500000_S500000x1_0 : S500000.BroadcastsInDim S500000x1 (![0] : Fin 1 → Fin S500000x1.rank)
  pads_S500000x2_S503808x2_038080_000 : S500000x2.Pads (![0, 0] : Fin 2 → Nat) ![3808, 0] ![0, 0] S503808x2
  h_S_ : 0 < S_.numel
  pads_S500000x128_S503808x128_038080_000 : S500000x128.Pads (![0, 0] : Fin 2 → Nat) ![3808, 0] ![0, 0] S503808x128
  transposes_S128x2_S2x128_1_0 : S128x2.Transposes [1, 0] S2x128
  transposes_S128x128_S128x128_1_0 : S128x128.Transposes [1, 0] S128x128
  bitsLt_bf16_f32 : FTy.bits .bf16 < FTy.bits .f32
  inb_S4096x2_S4096x2_0_0 : ∀ a, (![0, 0] : Fin 2 → Nat) a + S4096x2.size a ≤ S4096x2.size a
  h_S4096x2 : 0 < S4096x2.numel
  shapeCasts_S4096x2_S4096x2 : S4096x2.ShapeCasts S4096x2
  inb_S2x128_S2x128_0_0 : ∀ a, (![0, 0] : Fin 2 → Nat) a + S2x128.size a ≤ S2x128.size a
  h_S2x128 : 0 < S2x128.numel
  shapeCasts_S2x128_S2x128 : S2x128.ShapeCasts S2x128
  slices_S4096x2_o0_0_S4096x1 : S4096x2.Slices ![0, 0] S4096x1
  slices_S2x128_o0_0_S1x128 : S2x128.Slices ![0, 0] S1x128
  broadcasts_S4096x1_S4096x128 : S4096x1.Broadcasts S4096x128
  broadcasts_S1x128_S4096x128 : S1x128.Broadcasts S4096x128
  slices_S4096x2_o0_1_S4096x1 : S4096x2.Slices ![0, 1] S4096x1
  slices_S2x128_o1_0_S1x128 : S2x128.Slices ![1, 0] S1x128
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  reduces_S4096x128_S4096 : S4096x128.Reduces [1] S4096
  inb_S4096_S4096_0 : ∀ a, (![0] : Fin 1 → Nat) a + S4096.size a ≤ S4096.size a
  h_S4096 : 0 < S4096.numel
  slices_S503808_S500000_0 : S503808.Slices ![0] S500000
  bcast_S_S4096 : S_.BroadcastsInDim S4096 (![] : Fin 0 → Fin S4096.rank)
  pads_S500000_S503808_038080 : S500000.Pads (![0] : Fin 1 → Nat) ![3808] ![0] S503808
  shapeCasts_S4096_S4096 : S4096.ShapeCasts S4096
  shapeCasts_S4096_S4096x1 : S4096.ShapeCasts S4096x1
  slices_S503808x128_S500000x128_0_0 : S503808x128.Slices ![0, 0] S500000x128
  gather_S4096x2_S500000x1_S500000x2_1_0_n_n_0_1_12_wf : GatherDims.WF S4096x2 S500000x1 S500000x2 [1] [0] [] [0] [] 1 ![1, 2]
  dot_S4096x128_S128x128_S4096x128_1_0_0_1_n_n_wf : DotDims.WF S4096x128 S128x128 S4096x128 [1] [0] [0] [1] [] []
  scatter_S4096_S500000x1_S500000_n_0_0_1_wf : ScatterDims.WF S4096 S500000x1 S500000 [] [0] [0] 1
  gather_S4096_S500000x1_S500000_n_0_n_n_0_1_1_wf : GatherDims.WF S4096 S500000x1 S500000 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S503808x128.size a
  hwx0_0 : ∀ i : grid0.Coords, EltTy.bits .f32 = 32 ∨ (Rect.block (s := S503808x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x2.size a ≤ S503808x2.size a
  hwx0_1 : ∀ i : grid0.Coords, EltTy.bits .f32 = 32 ∨ (Rect.block (s := S503808x2) S4096x2.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2x128.size a ≤ S2x128.size a
  hwx0_4 : ∀ i : grid0.Coords, EltTy.bits .f32 = 32 ∨ (Rect.block (s := S2x128) S2x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4096.size a ≤ S503808.size a
  hwx0_5 : ∀ i : grid0.Coords, EltTy.bits .f32 = 32 ∨ (Rect.block (s := S503808) S4096.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096.size a ≤ S503808.size a
  hwx1_0 : ∀ i : grid1.Coords, EltTy.bits .f32 = 32 ∨ (Rect.block (s := S503808) S4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096.size a ≤ S503808.size a
  hwx1_1 : ∀ i : grid1.Coords, EltTy.bits .f32 = 32 ∨ (Rect.block (s := S503808) S4096.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4096x2.size a ≤ S503808x2.size a
  hwx1_2 : ∀ i : grid1.Coords, EltTy.bits .f32 = 32 ∨ (Rect.block (s := S503808x2) S4096x2.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S2x128.size a ≤ S2x128.size a
  hwx1_3 : ∀ i : grid1.Coords, EltTy.bits .f32 = 32 ∨ (Rect.block (s := S2x128) S2x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .bf16 = 32 ∨ (Rect.block (s := S128x128) S128x128.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x128.size a ≤ S128x128.size a
  hwx1_6 : ∀ i : grid1.Coords, EltTy.bits .bf16 = 32 ∨ (Rect.block (s := S128x128) S128x128.size (cc1_transform_6 i) (hinb1_6 i)).WholeWords (EltTy.packing .bf16)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128.size a ≤ S128.size a
  hwx1_7 : ∀ i : grid1.Coords, EltTy.bits .f32 = 32 ∨ (Rect.block (s := S128) S128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128x128.size a ≤ S128x128.size a
  hwx1_8 : ∀ i : grid1.Coords, EltTy.bits .bf16 = 32 ∨ (Rect.block (s := S128x128) S128x128.size (cc1_transform_8 i) (hinb1_8 i)).WholeWords (EltTy.packing .bf16)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S4096x128.size a ≤ S503808x128.size a
  hwx1_9 : ∀ i : grid1.Coords, EltTy.bits .f32 = 32 ∨ (Rect.block (s := S503808x128) S4096x128.size (cc1_transform_9 i) (hinb1_9 i)).WholeWords (EltTy.packing .f32)

variable [Facts₀]

def gather_S4096x2_S500000x1_S500000x2_1_0_n_n_0_1_12 : GatherDims S4096x2 S500000x1 S500000x2 where
  offsetDims := [1]
  collapsedSliceDims := [0]
  operandBatchingDims := []
  startIndicesBatchingDims := []
  startIndexMap := [0]
  indexVectorDim := 1
  sliceSizes := ![1, 2]
  wf := gather_S4096x2_S500000x1_S500000x2_1_0_n_n_0_1_12_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def scatter_S4096_S500000x1_S500000_n_0_0_1 : ScatterDims S4096 S500000x1 S500000 where
  updateWindowDims := []
  insertedWindowDims := [0]
  scatterDimsToOperandDims := [0]
  indexVectorDim := 1
  wf := scatter_S4096_S500000x1_S500000_n_0_0_1_wf
def gather_S4096_S500000x1_S500000_n_0_n_n_0_1_1 : GatherDims S4096 S500000x1 S500000 where
  offsetDims := []
  collapsedSliceDims := [0]
  operandBatchingDims := []
  startIndicesBatchingDims := []
  startIndexMap := [0]
  indexVectorDim := 1
  sliceSizes := ![1]
  wf := gather_S4096_S500000x1_S500000_n_0_n_n_0_1_1_wf

abbrev win0_0 : Pipeline.Window sig grid0 :=
  Pipeline.Window.ofSpec (Memref.whole main_v24) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S4096x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v28) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S2x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v35) S4096.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v47) S4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v48) S4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v23) S4096x2.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v26) S2x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v30) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v32) S128x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg10) S128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v34) S128x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v49) S4096x128.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S500000x128 : Shape := ⟨2, ![500000, 128]⟩
abbrev S4096 : Shape := ⟨1, ![4096]⟩
abbrev S500000 : Shape := ⟨1, ![500000]⟩
abbrev S128x128 : Shape := ⟨2, ![128, 128]⟩
abbrev S128 : Shape := ⟨1, ![128]⟩
abbrev S128x2 : Shape := ⟨2, ![128, 2]⟩
abbrev S1x128 : Shape := ⟨2, ![1, 128]⟩
abbrev S4096x1 : Shape := ⟨2, ![4096, 1]⟩
abbrev S4096x2 : Shape := ⟨2, ![4096, 2]⟩
abbrev S_ : Shape := ⟨0, ![]⟩
abbrev S2x128 : Shape := ⟨2, ![2, 128]⟩
abbrev S4096x128 : Shape := ⟨2, ![4096, 128]⟩
abbrev S500000x1 : Shape := ⟨2, ![500000, 1]⟩

abbrev nBuf : Space → Nat
  | .hbm => 130
  | .vmem => 0
  | .smem => 0
  | _ => 0

abbrev hbmTy0_0 (i : Nat) : BufTy := match i % 128 with
  | 0 => ⟨S500000x128, .f32⟩
  | 1 => ⟨S4096, .f32⟩
  | 2 => ⟨S500000, .i32⟩
  | 3 => ⟨S128x128, .f32⟩
  | 4 => ⟨S128, .f32⟩
  | 5 => ⟨S128x2, .f32⟩
  | 6 => ⟨S128x2, .f32⟩
  | 7 => ⟨S128x128, .f32⟩
  | 8 => ⟨S128, .f32⟩
  | 9 => ⟨S128x128, .f32⟩
  | 10 => ⟨S128, .f32⟩
  | 11 => ⟨S128x128, .f32⟩
  | 12 => ⟨S128x128, .f32⟩
  | 13 => ⟨S500000x128, .f32⟩
  | 14 => ⟨S1x128, .f32⟩
  | 15 => ⟨S500000x128, .f32⟩
  | 16 => ⟨S500000x128, .f32⟩
  | 17 => ⟨S4096, .f32⟩
  | 18 => ⟨S4096x1, .f32⟩
  | 19 => ⟨S4096x1, .f32⟩
  | 20 => ⟨S4096x2, .f32⟩
  | 21 => ⟨S_, .f32⟩
  | 22 => ⟨S4096x2, .f32⟩
  | 23 => ⟨S4096x2, .f32⟩
  | 24 => ⟨S_, .f32⟩
  | 25 => ⟨S4096x2, .f32⟩
  | 26 => ⟨S4096x2, .f32⟩
  | 27 => ⟨S4096x2, .f32⟩
  | 28 => ⟨S2x128, .f32⟩
  | 29 => ⟨S4096x128, .f32⟩
  | 30 => ⟨S_, .i32⟩
  | 31 => ⟨S500000, .i32⟩
  | 32 => ⟨S500000, .i1⟩
  | 33 => ⟨S_, .i32⟩
  | 34 => ⟨S500000, .i32⟩
  | 35 => ⟨S500000, .i32⟩
  | 36 => ⟨S500000, .i32⟩
  | 37 => ⟨S500000x1, .i32⟩
  | 38 => ⟨S500000x128, .f32⟩
  | 39 => ⟨S2x128, .f32⟩
  | 40 => ⟨S4096x128, .f32⟩
  | 41 => ⟨S_, .i32⟩
  | 42 => ⟨S500000, .i32⟩
  | 43 => ⟨S500000, .i1⟩
  | 44 => ⟨S_, .i32⟩
  | 45 => ⟨S500000, .i32⟩
  | 46 => ⟨S500000, .i32⟩
  | 47 => ⟨S500000, .i32⟩
  | 48 => ⟨S500000x1, .i32⟩
  | 49 => ⟨S500000x128, .f32⟩
  | 50 => ⟨S500000x128, .f32⟩
  | 51 => ⟨S_, .f32⟩
  | 52 => ⟨S500000, .f32⟩
  | 53 => ⟨S_, .f32⟩
  | 54 => ⟨S500000, .f32⟩
  | 55 => ⟨S500000, .f32⟩
  | 56 => ⟨S_, .f32⟩
  | 57 => ⟨S500000, .f32⟩
  | 58 => ⟨S500000, .f32⟩
  | 59 => ⟨S500000, .f32⟩
  | 60 => ⟨S500000, .f32⟩
  | 61 => ⟨S500000, .i1⟩
  | 62 => ⟨S500000, .f32⟩
  | 63 => ⟨S500000, .f32⟩
  | 64 => ⟨S500000, .f32⟩
  | 65 => ⟨S500000, .f32⟩
  | 66 => ⟨S500000, .f32⟩
  | 67 => ⟨S500000, .f32⟩
  | 68 => ⟨S500000, .f32⟩
  | 69 => ⟨S500000, .f32⟩
  | 70 => ⟨S_, .f32⟩
  | 71 => ⟨S4096, .f32⟩
  | 72 => ⟨S500000x1, .i32⟩
  | 73 => ⟨S4096, .f32⟩
  | 74 => ⟨S_, .i32⟩
  | 75 => ⟨S500000, .i32⟩
  | 76 => ⟨S500000, .i1⟩
  | 77 => ⟨S_, .i32⟩
  | 78 => ⟨S500000, .i32⟩
  | 79 => ⟨S500000, .i32⟩
  | 80 => ⟨S500000, .i32⟩
  | 81 => ⟨S500000x1, .i32⟩
  | 82 => ⟨S500000, .f32⟩
  | 83 => ⟨S_, .f32⟩
  | 84 => ⟨S500000, .f32⟩
  | 85 => ⟨S500000, .f32⟩
  | 86 => ⟨S500000, .f32⟩
  | 87 => ⟨S500000x1, .f32⟩
  | 88 => ⟨S500000x128, .f32⟩
  | 89 => ⟨S500000x128, .f32⟩
  | 90 => ⟨S500000x128, .f32⟩
  | 91 => ⟨S500000x128, .f32⟩
  | 92 => ⟨S_, .f32⟩
  | 93 => ⟨S500000x128, .f32⟩
  | 94 => ⟨S500000x128, .f32⟩
  | 95 => ⟨S_, .f32⟩
  | 96 => ⟨S500000x128, .f32⟩
  | 97 => ⟨S500000x128, .f32⟩
  | 98 => ⟨S500000x128, .f32⟩
  | 99 => ⟨S128x128, .f32⟩
  | 100 => ⟨S500000x128, .f32⟩
  | 101 => ⟨S1x128, .f32⟩
  | 102 => ⟨S500000x128, .f32⟩
  | 103 => ⟨S500000x128, .f32⟩
  | 104 => ⟨S500000x128, .f32⟩
  | 105 => ⟨S500000x128, .f32⟩
  | 106 => ⟨S_, .f32⟩
  | 107 => ⟨S500000x128, .f32⟩
  | 108 => ⟨S500000x128, .f32⟩
  | 109 => ⟨S_, .f32⟩
  | 110 => ⟨S500000x128, .f32⟩
  | 111 => ⟨S500000x128, .f32⟩
  | 112 => ⟨S500000x128, .f32⟩
  | 113 => ⟨S128x128, .f32⟩
  | 114 => ⟨S500000x128, .f32⟩
  | 115 => ⟨S500000x128, .f32⟩
  | 116 => ⟨S1x128, .f32⟩
  | 117 => ⟨S500000x128, .f32⟩
  | 118 => ⟨S500000x128, .f32⟩
  | 119 => ⟨S500000x128, .f32⟩
  | 120 => ⟨S500000x128, .f32⟩
  | 121 => ⟨S_, .f32⟩
  | 122 => ⟨S500000x128, .f32⟩
  | 123 => ⟨S500000x128, .f32⟩
  | 124 => ⟨S_, .f32⟩
  | 125 => ⟨S500000x128, .f32⟩
  | 126 => ⟨S500000x128, .f32⟩
  | 127 => ⟨S500000x128, .f32⟩
  | _ => ⟨S500000x128, .f32⟩

abbrev hbmTy0_1 (i : Nat) : BufTy := match i % 128 with
  | 0 => ⟨S128x128, .f32⟩
  | 1 => ⟨S500000x128, .f32⟩
  | _ => ⟨S500000x128, .f32⟩

abbrev hbmTy (i : Nat) : BufTy := match i / 128 with
  | 0 => hbmTy0_0 i
  | 1 => hbmTy0_1 i
  | _ => ⟨S500000x128, .f32⟩

abbrev bufTy : (tb : Table) → Fin (tcTables nBuf tb) → BufTy
  | .hbm, ⟨i, _⟩ => hbmTy i
  | _, _ => ⟨S500000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_call0_cst : Ref sig .tc := ⟨.hbm, 21, rfl⟩
abbrev main_call0_v0 : Ref sig .tc := ⟨.hbm, 22, rfl⟩
abbrev main_v9 : Ref sig .tc := ⟨.hbm, 23, rfl⟩
abbrev main_cst : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_0 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_1 : Ref sig .tc := ⟨.hbm, 41, rfl⟩
abbrev main_v24 : Ref sig .tc := ⟨.hbm, 42, rfl⟩
abbrev main_v25 : Ref sig .tc := ⟨.hbm, 43, rfl⟩
abbrev main_c_2 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_3 : Ref sig .tc := ⟨.hbm, 51, rfl⟩
abbrev main_v32 : Ref sig .tc := ⟨.hbm, 52, rfl⟩
abbrev main_cst_4 : Ref sig .tc := ⟨.hbm, 53, rfl⟩
abbrev main_v33 : Ref sig .tc := ⟨.hbm, 54, rfl⟩
abbrev main_v34 : Ref sig .tc := ⟨.hbm, 55, rfl⟩
abbrev main_call1_cst : Ref sig .tc := ⟨.hbm, 56, rfl⟩
abbrev main_call1_v0 : Ref sig .tc := ⟨.hbm, 57, rfl⟩
abbrev main_call1_v1 : Ref sig .tc := ⟨.hbm, 58, rfl⟩
abbrev main_call1_v2 : Ref sig .tc := ⟨.hbm, 59, rfl⟩
abbrev main_call1_v3 : Ref sig .tc := ⟨.hbm, 60, rfl⟩
abbrev main_call1_v4 : Ref sig .tc := ⟨.hbm, 61, rfl⟩
abbrev main_call1_v5 : Ref sig .tc := ⟨.hbm, 62, rfl⟩
abbrev main_call1_v6 : Ref sig .tc := ⟨.hbm, 63, rfl⟩
abbrev main_call1_v7 : Ref sig .tc := ⟨.hbm, 64, rfl⟩
abbrev main_call1_v8 : Ref sig .tc := ⟨.hbm, 65, rfl⟩
abbrev main_call1_v9 : Ref sig .tc := ⟨.hbm, 66, rfl⟩
abbrev main_call1_v10 : Ref sig .tc := ⟨.hbm, 67, rfl⟩
abbrev main_call1_v11 : Ref sig .tc := ⟨.hbm, 68, rfl⟩
abbrev main_v35 : Ref sig .tc := ⟨.hbm, 69, rfl⟩
abbrev main_cst_5 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_c_6 : Ref sig .tc := ⟨.hbm, 74, rfl⟩
abbrev main_v39 : Ref sig .tc := ⟨.hbm, 75, rfl⟩
abbrev main_v40 : Ref sig .tc := ⟨.hbm, 76, rfl⟩
abbrev main_c_7 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_cst_8 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_call2_v0 : Ref sig .tc := ⟨.hbm, 90, rfl⟩
abbrev main_call2_v1 : Ref sig .tc := ⟨.hbm, 91, rfl⟩
abbrev main_call2_cst : Ref sig .tc := ⟨.hbm, 92, rfl⟩
abbrev main_call2_v2 : Ref sig .tc := ⟨.hbm, 93, rfl⟩
abbrev main_call2_v3 : Ref sig .tc := ⟨.hbm, 94, rfl⟩
abbrev main_call2_cst_0 : Ref sig .tc := ⟨.hbm, 95, rfl⟩
abbrev main_call2_v4 : Ref sig .tc := ⟨.hbm, 96, rfl⟩
abbrev main_call2_v5 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_call3_v0 : Ref sig .tc := ⟨.hbm, 104, rfl⟩
abbrev main_call3_v1 : Ref sig .tc := ⟨.hbm, 105, rfl⟩
abbrev main_call3_cst : Ref sig .tc := ⟨.hbm, 106, rfl⟩
abbrev main_call3_v2 : Ref sig .tc := ⟨.hbm, 107, rfl⟩
abbrev main_call3_v3 : Ref sig .tc := ⟨.hbm, 108, rfl⟩
abbrev main_call3_cst_0 : Ref sig .tc := ⟨.hbm, 109, rfl⟩
abbrev main_call3_v4 : Ref sig .tc := ⟨.hbm, 110, rfl⟩
abbrev main_call3_v5 : Ref sig .tc := ⟨.hbm, 111, rfl⟩
abbrev main_v58 : Ref sig .tc := ⟨.hbm, 112, rfl⟩
abbrev main_v59 : Ref sig .tc := ⟨.hbm, 113, rfl⟩
abbrev main_v60 : Ref sig .tc := ⟨.hbm, 114, rfl⟩
abbrev main_v61 : Ref sig .tc := ⟨.hbm, 115, rfl⟩
abbrev main_v62 : Ref sig .tc := ⟨.hbm, 116, rfl⟩
abbrev main_v63 : Ref sig .tc := ⟨.hbm, 117, rfl⟩
abbrev main_v64 : Ref sig .tc := ⟨.hbm, 118, rfl⟩
abbrev main_call4_v0 : Ref sig .tc := ⟨.hbm, 119, rfl⟩
abbrev main_call4_v1 : Ref sig .tc := ⟨.hbm, 120, rfl⟩
abbrev main_call4_cst : Ref sig .tc := ⟨.hbm, 121, rfl⟩
abbrev main_call4_v2 : Ref sig .tc := ⟨.hbm, 122, rfl⟩
abbrev main_call4_v3 : Ref sig .tc := ⟨.hbm, 123, rfl⟩
abbrev main_call4_cst_0 : Ref sig .tc := ⟨.hbm, 124, rfl⟩
abbrev main_call4_v4 : Ref sig .tc := ⟨.hbm, 125, rfl⟩
abbrev main_call4_v5 : Ref sig .tc := ⟨.hbm, 126, rfl⟩
abbrev main_v65 : Ref sig .tc := ⟨.hbm, 127, rfl⟩
abbrev main_v66 : Ref sig .tc := ⟨.hbm, 128, rfl⟩
abbrev main_v67 : Ref sig .tc := ⟨.hbm, 129, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S500000x128_0_1 : S1x128.BroadcastsInDim S500000x128 (![0, 1] : Fin 2 → Fin S500000x128.rank)
  bcast_S4096_S4096x1_0 : S4096.BroadcastsInDim S4096x1 (![0] : Fin 1 → Fin S4096x1.rank)
  concatenates_S4096x1_S4096x1_S4096x2_d1 : Shape.Concatenates [S4096x1, S4096x1] S4096x2 1
  bcast_S_S4096x2 : S_.BroadcastsInDim S4096x2 (![] : Fin 0 → Fin S4096x2.rank)
  transposes_S128x2_S2x128_1_0 : S128x2.Transposes [1, 0] S2x128
  bcast_S_S500000 : S_.BroadcastsInDim S500000 (![] : Fin 0 → Fin S500000.rank)
  bcast_S500000_S500000x1_0 : S500000.BroadcastsInDim S500000x1 (![0] : Fin 1 → Fin S500000x1.rank)
  reducesTo_S500000x128_S500000_d1 : S500000x128.ReducesTo [1] S500000
  h_S_ : 0 < S_.numel
  bcast_S_S4096 : S_.BroadcastsInDim S4096 (![] : Fin 0 → Fin S4096.rank)
  bcast_S500000x1_S500000x128_0_1 : S500000x1.BroadcastsInDim S500000x128 (![0, 1] : Fin 2 → Fin S500000x128.rank)
  bcast_S_S500000x128 : S_.BroadcastsInDim S500000x128 (![] : Fin 0 → Fin S500000x128.rank)
  dot_S500000x128_S128x128_S500000x128_1_0_0_1_n_n_wf : DotDims.WF S500000x128 S128x128 S500000x128 [1] [0] [0] [1] [] []
  dot_S4096x2_S2x128_S4096x128_1_0_0_1_n_n_wf : DotDims.WF S4096x2 S2x128 S4096x128 [1] [0] [0] [1] [] []
  gather_S4096x128_S500000x1_S500000x128_1_0_n_n_0_1_1128_wf : GatherDims.WF S4096x128 S500000x1 S500000x128 [1] [0] [] [0] [] 1 ![1, 128]
  scatter_S4096_S500000x1_S500000_n_0_0_1_wf : ScatterDims.WF S4096 S500000x1 S500000 [] [0] [0] 1
  gather_S4096_S500000x1_S500000_n_0_n_n_0_1_1_wf : GatherDims.WF S4096 S500000x1 S500000 [] [0] [] [0] [] 1 ![1]

variable [Facts₀]

def dot_S500000x128_S128x128_S500000x128_1_0_0_1_n_n : DotDims S500000x128 S128x128 S500000x128 where
  lhsContracting := [1]
  rhsContracting := [0]
  lhsNonContracting := [0]
  rhsNonContracting := [1]
  lhsBatch := []
  rhsBatch := []
  wf := dot_S500000x128_S128x128_S500000x128_1_0_0_1_n_n_wf
def dot_S4096x2_S2x128_S4096x128_1_0_0_1_n_n : DotDims S4096x2 S2x128 S4096x128 where
  lhsContracting := [1]
  rhsContracting := [0]
  lhsNonContracting := [0]
  rhsNonContracting := [1]
  lhsBatch := []
  rhsBatch := []
  wf := dot_S4096x2_S2x128_S4096x128_1_0_0_1_n_n_wf
def gather_S4096x128_S500000x1_S500000x128_1_0_n_n_0_1_1128 : GatherDims S4096x128 S500000x1 S500000x128 where
  offsetDims := [1]
  collapsedSliceDims := [0]
  operandBatchingDims := []
  startIndicesBatchingDims := []
  startIndexMap := [0]
  indexVectorDim := 1
  sliceSizes := ![1, 128]
  wf := gather_S4096x128_S500000x1_S500000x128_1_0_n_n_0_1_1128_wf
def scatter_S4096_S500000x1_S500000_n_0_0_1 : ScatterDims S4096 S500000x1 S500000 where
  updateWindowDims := []
  insertedWindowDims := [0]
  scatterDimsToOperandDims := [0]
  indexVectorDim := 1
  wf := scatter_S4096_S500000x1_S500000_n_0_0_1_wf
def gather_S4096_S500000x1_S500000_n_0_n_n_0_1_1 : GatherDims S4096 S500000x1 S500000 where
  offsetDims := []
  collapsedSliceDims := [0]
  operandBatchingDims := []
  startIndicesBatchingDims := []
  startIndexMap := [0]
  indexVectorDim := 1
  sliceSizes := ![1]
  wf := gather_S4096_S500000x1_S500000_n_0_n_n_0_1_1_wf

class Facts : Prop extends Facts₀ where

variable [Facts]
-- ==== Proof.KernelRun.lean ====
/-
  The idealized kernel's run with its RESULT named: every weakly fair execution of @main terminates, nothing faulting,
  the result buffer holding what the fold of @main's segments leaves there (host stretches applied in order, each
  region's arrays at what its grid points wrote back) and the argument arrays unchanged.
-/
import proofs.«114423_j17179869975_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The launch over the segments, the last thread state read against the final state: the result buffer at the
    fold's contents, each argument at its launch contents. -/
theorem run_result : θ_run defs (onTc (τ := τ) (main (F := F))) ⟨m, fun _ => 0, ρ⟩ (fun r => ∀ c : Dev nD,
      r.2.mem ((c.tc : Thread nD τ).loc main_v50) = W16 m ρ c (Proc.devRef .tc main_v50)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h c =>
      ⟨h c _ (mem_uc main_v50 (by decide)),
       (h c _ (mem_uc main_arg0 (by decide))).trans (W16_main_arg0 m ρ c),
       (h c _ (mem_uc main_arg1 (by decide))).trans (W16_main_arg1 m ρ c),
       (h c _ (mem_uc main_arg2 (by decide))).trans (W16_main_arg2 m ρ c),
       (h c _ (mem_uc main_arg3 (by decide))).trans (W16_main_arg3 m ρ c),
       (h c _ (mem_uc main_arg4 (by decide))).trans (W16_main_arg4 m ρ c),
       (h c _ (mem_uc main_arg5 (by decide))).trans (W16_main_arg5 m ρ c),
       (h c _ (mem_uc main_arg6 (by decide))).trans (W16_main_arg6 m ρ c),
       (h c _ (mem_uc main_arg7 (by decide))).trans (W16_main_arg7 m ρ c),
       (h c _ (mem_uc main_arg8 (by decide))).trans (W16_main_arg8 m ρ c),
       (h c _ (mem_uc main_arg9 (by decide))).trans (W16_main_arg9 m ρ c),
       (h c _ (mem_uc main_arg10 (by decide))).trans (W16_main_arg10 m ρ c),
       (h c _ (mem_uc main_arg11 (by decide))).trans (W16_main_arg11 m ρ c)⟩)

end Cert.KernelIdeal.Run

end
-- ==== Proof.QkRow.lean ====
/-
  One row of the first kernel against the reference. Row r of a grid point's block holds atom n's data: its embedding row,
  the two charge features of the molecule the atom belongs to (table row ρ), and the whole (transposed) weights.
  The body computes k = e0·Wkᵀ[0,:] + e1·Wkᵀ[1,:], q = x·Wqᵀ + bq, the row sum of k·q scaled by the named reciprocal of the
  reference's divisor, and softplus of that; the reference computes the same from the (4096,128) key table gathered at the atom.
-/
import proofs.«114423_j17179869975_2_alg».proof.Proof.Gen.KernelIdeal.Skeleton
import proofs.«114423_j17179869975_2_alg».proof.Proof.Gen.ReferenceIdeal.Read
import Idealize.ShloMosaic.Lib.ValueIdx
import Idealize.ShloMosaic.Lib.ValueLayout
import Idealize.ShloMosaic.Lib.Pipeline.Value
import Idealize.ShloMosaic.PureOps.Ideal.Laws

noncomputable section

namespace Cert.Bridge

open Idealize.ShloMosaic Idealize.ShloMosaic.ValueIdx Cert.ReferenceIdeal Cert.ReferenceIdeal.Read

namespace Qk

/-! ## Constants -/

/-- The kernel's named reciprocal denotes the rational 1048576/11863283. -/
theorem inv_sqrt_d : Named.named (F := Ideal) Cert.KernelIdeal.κ "inv_sqrt_d" (φ := .f32) 0x3DB504F3#32
    = ((1048576 / 11863283 : ℝ) : EReal) :=
  IdealRules.named_const.ideal_named_scalar _ _ _ _ rfl

/-- The reference's divisor denotes the rational 11863283/1048576. -/
theorem ofBits_sqrt_d : Ideal.ofBits .f32 0x413504F3#32 = ((11863283 / 1048576 : ℝ) : EReal) := by
  simp [Ideal.ofBits, Ideal.ieee, -EReal.coe_mul]; norm_num

/-! ## Layout -/

/-- An `[a, 1]` column broadcast to `[a, b]` reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## Pointwise operations and a lane sum at an index -/

/-- The absolute value at an index is `max x (-x)` of the element … -/
theorem absf_apply {s : Shape} {φ : FTy} (a : FVec Ideal s φ) (i : s.Idx) : absf a i = max (a i) (-(a i)) := rfl
/-- … the exponential at an index is the exponential of the element … -/
theorem exp_apply {s : Shape} {φ : FTy} (a : FVec Ideal s φ) (i : s.Idx) : exp a i = Ideal.exp (a i) := rfl
/-- … and `log1p` the `log1p` of the element. -/
theorem log1p_apply {s : Shape} {φ : FTy} (a : FVec Ideal s φ) (i : s.Idx) : log1p a i = Ideal.log1p (a i) := rfl

/-- A sum over the lanes of a `[4096, 128]` block, read at row `r`, is the sum over the row. -/
theorem rowsum_apply (src : FVec Ideal ⟨2, ![4096, 128]⟩ .f32) (h : Shape.Reduces ⟨2, ![4096, 128]⟩ [1] ⟨1, ![4096]⟩)
    (hφ : FKind.Formats .f32) (hacc : (0x00000000#32 : BitVec 32) = 0x00000000#32) (r : Fin 4096) :
    multiReduction (F := Ideal) .add [1] ⟨1, ![4096]⟩ src 0x00000000#32 h hφ hacc (ix1 r) = ∑ d : Fin 128, src (ix2 r d) :=
  (Ideal.multiReduction_add_single src 0x00000000#32 h hφ hacc (ix1 r)).trans
    (Finset.sum_congr rfl fun d _ => congrArg src (funext fun a => Fin.ext (by
      match a with
      | ⟨0, _⟩ => rfl
      | ⟨1, _⟩ => rfl)))

/-! ## The kernel's matmul at an index -/

section Matmul
local notation "DQ" => Cert.KernelIdeal.dot_S4096x128_S128x128_S4096x128_1_0_0_1_n_n

/-- The operand indices of the `[4096, 128] × [128, 128]` product at output index `i` and contraction index `q`: the left one is
    `(i 0, q)`, the right one `(q, i 1)`, coordinate by coordinate. -/
theorem lhs_q_0 (i : (⟨2, ![4096, 128]⟩ : Shape).Idx) (q : (DQ).contr.Idx) : ((DQ).lhsIdx i q 0).val = (i 0).val := by
  unfold DotDims.lhsIdx
  rw [dif_neg (show ¬(0 : Fin (⟨2, ![4096, 128]⟩ : Shape).rank) ∈ (DQ).lhsBatch by decide),
    dif_pos (show (0 : Fin (⟨2, ![4096, 128]⟩ : Shape).rank) ∈ (DQ).lhsNonContracting by decide)]
  rfl
theorem lhs_q_1 (i : (⟨2, ![4096, 128]⟩ : Shape).Idx) (q : (DQ).contr.Idx) : ((DQ).lhsIdx i q 1).val = (q ⟨0, by decide⟩).val :=
  (DQ).lhsIdx_val_of_single rfl i q
theorem rhs_q_0 (i : (⟨2, ![4096, 128]⟩ : Shape).Idx) (q : (DQ).contr.Idx) : ((DQ).rhsIdx i q 0).val = (q ⟨0, by decide⟩).val :=
  (DQ).rhsIdx_val_of_single rfl i q
theorem rhs_q_1 (i : (⟨2, ![4096, 128]⟩ : Shape).Idx) (q : (DQ).contr.Idx) : ((DQ).rhsIdx i q 1).val = (i 1).val := by
  unfold DotDims.rhsIdx
  rw [dif_neg (show ¬(1 : Fin (⟨2, ![128, 128]⟩ : Shape).rank) ∈ (DQ).rhsBatch by decide),
    dif_pos (show (1 : Fin (⟨2, ![128, 128]⟩ : Shape).rank) ∈ (DQ).rhsNonContracting by decide)]
  rfl

/-- The product of a `[4096, 128]` block with a `[128, 128]` matrix into a zero accumulator, read at `(r, d)`, is the sum over
    the contracted coordinate. -/
theorem matmul_row_apply (A : FVec Ideal ⟨2, ![4096, 128]⟩ .bf16) (B : FVec Ideal ⟨2, ![128, 128]⟩ .bf16) (r : Fin 4096) (d : Fin 128) :
    matmul (DQ) none A B (constant ⟨2, ![4096, 128]⟩ .f32 0x00000000#32) (ix2 r d) = ∑ j : Fin 128, A (ix2 r j) * B (ix2 j d) := by
  refine (Ideal.matmul_constant_zero_apply (DQ) none A B (ix2 r d)).trans ?_
  rw [← Equiv.sum_comp (ValueIdx.contrEquiv1 (DQ) 128 rfl rfl).symm]
  refine Finset.sum_congr rfl fun k _ => ?_
  have hk := ValueIdx.contrEquiv1_symm_val (DQ) 128 rfl rfl k
  have el : (DQ).lhsIdx (ix2 r d) ((ValueIdx.contrEquiv1 (DQ) 128 rfl rfl).symm k) = ix2 r k := funext fun a => Fin.ext (by
    match a with
    | ⟨0, _⟩ => exact lhs_q_0 _ _
    | ⟨1, _⟩ => exact (lhs_q_1 _ _).trans hk)
  have er : (DQ).rhsIdx (ix2 r d) ((ValueIdx.contrEquiv1 (DQ) 128 rfl rfl).symm k) = ix2 k d := funext fun a => Fin.ext (by
    match a with
    | ⟨0, _⟩ => exact (rhs_q_0 _ _).trans hk
    | ⟨1, _⟩ => exact rhs_q_1 _ _)
  rw [el, er]

end Matmul

/-! ## Softplus as jax spells `logaddexp(x, 0)` -/

/-- `logaddexp(x, 0)` on the extended reals: `max x 0 + log1p (exp (-|x|))`. -/
def softplus0 (x : EReal) : EReal := max x 0 + Ideal.log1p (Ideal.exp (-(max x (-x))))

/-- An extended real does not differ from itself: the ordered "not equal" is false … -/
theorem cmp_one_self (x : EReal) : Ideal.cmp .one x x = 0#1 := by simp [Ideal.cmp]
/-- … and so is the unordered one. -/
theorem cmp_une_self (x : EReal) : Ideal.cmp .une x x = 0#1 := by simp [Ideal.cmp]

/-- The kernel's spelling: the guard compares `x - 0` with itself, and the exponent is `0 - |x - 0|`. -/
theorem softplus_kernel (x : EReal) :
    Scalar.select (FloatOps.cmpf (F := Ideal) (φ := .f32) .one (x - FloatOps.ofBits (F := Ideal) .f32 0x00000000#32) (x - FloatOps.ofBits (F := Ideal) .f32 0x00000000#32))
        (x + FloatOps.ofBits (F := Ideal) .f32 0x00000000#32)
        (max x (FloatOps.ofBits (F := Ideal) .f32 0x00000000#32) + Ideal.log1p (Ideal.exp (FloatOps.ofBits (F := Ideal) .f32 0x00000000#32
          - max (x - FloatOps.ofBits (F := Ideal) .f32 0x00000000#32) (-(x - FloatOps.ofBits (F := Ideal) .f32 0x00000000#32)))))
      = softplus0 x := by
  simp only [Ideal.ofBits_def, Ideal.ofBits_zero_f32, sub_zero, add_zero, zero_sub, Ideal.cmpf_def, cmp_one_self, select_zero, softplus0]

/-- The reference's spelling: the guard is the unordered comparison, and the exponent is the negation of `|x - 0|`. -/
theorem softplus_reference (x : EReal) :
    Scalar.select (FloatOps.cmpf (F := Ideal) (φ := .f32) .une (x - FloatOps.ofBits (F := Ideal) .f32 0x00000000#32) (x - FloatOps.ofBits (F := Ideal) .f32 0x00000000#32))
        (x + FloatOps.ofBits (F := Ideal) .f32 0x00000000#32)
        (max x (FloatOps.ofBits (F := Ideal) .f32 0x00000000#32) + Ideal.log1p (Ideal.exp
          (-(max (x - FloatOps.ofBits (F := Ideal) .f32 0x00000000#32) (-(x - FloatOps.ofBits (F := Ideal) .f32 0x00000000#32))))))
      = softplus0 x := by
  simp only [Ideal.ofBits_def, Ideal.ofBits_zero_f32, sub_zero, add_zero, Ideal.cmpf_def, cmp_une_self, select_zero, softplus0]

/-! ## The kernel's row -/

/-- Row `r` of the first kernel's payload: softplus of the scaled row sum of `k · q`. -/
theorem kernel_row (egk : Vec Ideal Cert.KernelIdeal.S4096x2 .f32) (wkt : Vec Ideal Cert.KernelIdeal.S2x128 .f32)
    (xb : Vec Ideal Cert.KernelIdeal.S4096x128 .f32) (wqt : Vec Ideal Cert.KernelIdeal.S128x128 .bf16)
    (bqv : Vec Ideal Cert.KernelIdeal.S128 .f32) (r : Fin 4096) :
    Cert.KernelIdeal.Gen.k0_pay1 (F := Ideal) egk wkt xb wqt bqv (ix1 r)
      = softplus0 ((∑ d : Fin 128, (egk (ix2 r (0 : Fin 2)) * wkt (ix2 (0 : Fin 2) d) + egk (ix2 r (1 : Fin 2)) * wkt (ix2 (1 : Fin 2) d))
          * ((∑ j : Fin 128, xb (ix2 r j) * wqt (ix2 j d)) + bqv (ix1 d))) * ((1048576 / 11863283 : ℝ) : EReal)) := by
  have e0 : ∀ h, (⟨0 + ((0 : Fin 1) : ℕ), h⟩ : Fin 2) = 0 := fun _ => rfl
  have e1 : ∀ h, (⟨1 + ((0 : Fin 1) : ℕ), h⟩ : Fin 2) = 1 := fun _ => rfl
  unfold Cert.KernelIdeal.Gen.k0_pay1
  simp only [select_apply, cmpf_apply, addf_apply, subf_apply, mulf_apply, maximumf_apply, broadcast_apply, absf_apply,
    exp_apply, log1p_apply]
  rw [rowsum_apply]
  simp only [mulf_apply, addf_apply, matmul_row_apply, truncf_apply, shapeCast_self, broadcastTo_a1_ab_apply,
    broadcastTo_1b_ab_apply, shapeCast_a_1a_apply, slice2_axis1_eq, slice2_axis0_eq, e0, e1]
  rw [inv_sqrt_d]
  exact softplus_kernel _

/-! ## The reference's row -/

/-- The reference's query at `(n, d)`: the atom's row against row `d` of the weights, plus the bias. -/
theorem query_row (atom : (⟨S500000x128, .f32⟩ : BufTy).Contents (Elt Ideal)) (Wq : (⟨S128x128, .f32⟩ : BufTy).Contents (Elt Ideal))
    (bq : (⟨S128, .f32⟩ : BufTy).Contents (Elt Ideal)) (n : Fin 500000) (d : Fin 128) :
    val_main_v4 (F := Ideal) atom Wq bq (ix2 n d) = (∑ j : Fin 128, atom (ix2 n j) * Wq (ix2 d j)) + bq (ix1 d) := by
  rw [val_main_v4_apply, val_main_v1_apply, val_main_v3_apply, val_main_v2_apply]
  simp only [val_main_v0_apply]
  have el : ∀ k : Fin 128, lidx_main_v1 (ix2 n d) k = ix2 n k := fun k => funext fun a => Fin.ext (by
    match a with
    | ⟨0, _⟩ => rfl
    | ⟨1, _⟩ => rfl)
  have er : ∀ k : Fin 128, idx_main_v0 (ridx_main_v1 (ix2 n d) k) = ix2 d k := fun k => funext fun a => Fin.ext (by
    match a with
    | ⟨0, _⟩ => rfl
    | ⟨1, _⟩ => rfl)
  have eb : idx_main_v2 (idx_main_v3 (ix2 n d)) = ix1 d := funext fun a => Fin.ext (by
    match a with
    | ⟨0, _⟩ => rfl)
  exact congrArg₂ (· + ·) (Finset.sum_congr rfl fun k _ => congrArg₂ (· * ·) (congrArg atom (el k)) (congrArg Wq (er k)))
    (congrArg bq eb)

/-- The reference's key table at `(ρ, d)`: the molecule's two charge features against row `d` of the key weights. -/
theorem key_row (Q : (⟨S4096, .f32⟩ : BufTy).Contents (Elt Ideal)) (Wk : (⟨S128x2, .f32⟩ : BufTy).Contents (Elt Ideal))
    (ρ : Fin 4096) (d : Fin 128) :
    val_main_v14 (F := Ideal) Q Wk (ix2 ρ d)
      = val_main_v12 (F := Ideal) Q (ix2 ρ (0 : Fin 2)) * Wk (ix2 d (0 : Fin 2))
        + val_main_v12 (F := Ideal) Q (ix2 ρ (1 : Fin 2)) * Wk (ix2 d (1 : Fin 2)) := by
  rw [val_main_v14_apply, Fin.sum_univ_two]
  simp only [val_main_v13_apply]
  have el : ∀ k : Fin 2, lidx_main_v14 (ix2 ρ d) k = ix2 ρ k := fun k => funext fun a => Fin.ext (by
    match a with
    | ⟨0, _⟩ => rfl
    | ⟨1, _⟩ => rfl)
  have er : ∀ k : Fin 2, idx_main_v13 (ridx_main_v14 (ix2 ρ d) k) = ix2 d k := fun k => funext fun a => Fin.ext (by
    match a with
    | ⟨0, _⟩ => rfl
    | ⟨1, _⟩ => rfl)
  exact congrArg₂ (· + ·)
    (congrArg₂ (· * ·) (congrArg (val_main_v12 (F := Ideal) Q) (el 0)) (congrArg Wk (er 0)))
    (congrArg₂ (· * ·) (congrArg (val_main_v12 (F := Ideal) Q) (el 1)) (congrArg Wk (er 1)))

/-- Row `n` of the reference's scores: softplus of the row sum of (gathered key) · (query), divided by the literal. -/
theorem reference_row (atom : (⟨S500000x128, .f32⟩ : BufTy).Contents (Elt Ideal)) (Q : (⟨S4096, .f32⟩ : BufTy).Contents (Elt Ideal))
    (seg : (⟨S500000, .i32⟩ : BufTy).Contents (Elt Ideal)) (Wq : (⟨S128x128, .f32⟩ : BufTy).Contents (Elt Ideal))
    (bq : (⟨S128, .f32⟩ : BufTy).Contents (Elt Ideal)) (Wk : (⟨S128x2, .f32⟩ : BufTy).Contents (Elt Ideal)) (n : Fin 500000) :
    val_main_v35 (F := Ideal) atom Q seg Wq bq Wk (ix1 n)
      = softplus0 (Ideal.div (∑ d : Fin 128, val_main_v21 (F := Ideal) Q seg Wk (ix2 n d)
            * ((∑ j : Fin 128, atom (ix2 n j) * Wq (ix2 d j)) + bq (ix1 d)))
          (Ideal.ofBits .f32 0x413504F3#32)) := by
  have e32 : ∀ k : Fin 128, idx_main_v32 (ix1 n) k = ix2 n k := fun k => funext fun a => Fin.ext (by
    match a with
    | ⟨0, _⟩ => rfl
    | ⟨1, _⟩ => rfl)
  rw [val_main_v35_apply]
  simp only [val_main_call1_v4_apply, val_main_call1_v6_apply, val_main_call1_v11_apply, val_main_call1_v1_apply,
    val_main_call1_v10_apply, val_main_call1_v9_apply, val_main_call1_v8_apply, val_main_call1_v7_apply,
    val_main_call1_v3_apply, val_main_call1_v0_apply, val_main_call1_v2_apply, val_main_call1_v5_apply,
    val_main_call1_cst_apply, Ideal.hostUnary_log1p_def, Ideal.hostUnary_exp_def, Ideal.hostNegf_def, Ideal.hostAbsf_def,
    Ideal.negf_def, Ideal.absf_def, Ideal.addf_def, Ideal.subf_def, Ideal.maximumf_def]
  refine (softplus_reference _).trans (congrArg softplus0 ?_)
  rw [val_main_v34_apply, val_main_v33_apply, val_main_cst_4_apply, val_main_v32_apply, val_main_cst_3_apply]
  simp only [val_main_v31_apply, e32, query_row, Ideal.hostDivf_def, Ideal.ofBits_def, Ideal.ofBits_zero_f32, zero_add,
    Ideal.mulf_def]

end Qk

/-! ## The two rows agree -/

open Qk in
theorem qk_row (atom : (⟨S500000x128, .f32⟩ : BufTy).Contents (Elt Ideal)) (Q : (⟨S4096, .f32⟩ : BufTy).Contents (Elt Ideal))
    (seg : (⟨S500000, .i32⟩ : BufTy).Contents (Elt Ideal)) (Wq : (⟨S128x128, .f32⟩ : BufTy).Contents (Elt Ideal))
    (bq : (⟨S128, .f32⟩ : BufTy).Contents (Elt Ideal)) (Wk : (⟨S128x2, .f32⟩ : BufTy).Contents (Elt Ideal))
    (xb : Vec Ideal S4096x128 .f32) (egk : Vec Ideal S4096x2 .f32) (wqt : Vec Ideal S128x128 .bf16)
    (bqv : Vec Ideal S128 .f32) (wkt : Vec Ideal S2x128 .f32)
    (n : Fin 500000) (r ρ : Fin 4096)
    (hx : ∀ j : Fin 128, xb (ix2 r j) = atom (ix2 n j))
    (hegk : ∀ j : Fin 2, egk (ix2 r j) = val_main_v12 (F := Ideal) Q (ix2 ρ j))
    (hgk : ∀ d : Fin 128, val_main_v21 (F := Ideal) Q seg Wk (ix2 n d) = val_main_v14 (F := Ideal) Q Wk (ix2 ρ d))
    (hwqt : ∀ j d : Fin 128, wqt (ix2 j d) = Wq (ix2 d j))
    (hbq : ∀ d : Fin 128, bqv (ix1 d) = bq (ix1 d))
    (hwkt : ∀ (j : Fin 2) (d : Fin 128), wkt (ix2 j d) = Wk (ix2 d j)) :
    Cert.KernelIdeal.Gen.k0_pay1 (F := Ideal) egk wkt xb wqt bqv (ix1 r)
      = val_main_v35 (F := Ideal) atom Q seg Wq bq Wk (ix1 n) := by
  rw [kernel_row, reference_row, ofBits_sqrt_d, Ideal.div_coe (by norm_num : (11863283 / 1048576 : ℝ) ≠ 0)]
  refine congrArg softplus0 (congrArg₂ (· * ·) (Finset.sum_congr rfl fun d _ => ?_)
    (congrArg (fun t : ℝ => (t : EReal)) (by norm_num)))
  simp only [hgk, key_row, hegk, hwkt, hbq, hx, hwqt]

end Cert.Bridge

end
-- ==== Proof.GatherRows.lean ====
/-
  A row gather read at an index. `table[idx]` along axis 0 of a (4096, C) table with one start index per result row:
  result element (n, c) is the table's element (row, c), where row is the start index of n read as a signed integer and
  clamped into [0, 4095] — the same row whatever the width C of the table.
-/
import proofs.«114423_j17179869975_2_alg».proof.Proof.Gen.KernelIdeal
import proofs.«114423_j17179869975_2_alg».proof.Proof.Gen.ReferenceIdeal
import Idealize.ShloMosaic.Lib.ValueIdx

noncomputable section

namespace Cert.Bridge

open Idealize.ShloMosaic Idealize.ShloMosaic.ValueIdx

/-- The table row that start index `n` selects: read signed, clamped into `[0, 4095]`. -/
def gRow (idx : IVec (⟨2, ![500000, 1]⟩ : Shape) 32) (n : Fin 500000) : Fin 4096 :=
  ⟨min (idx (ix2 n (0 : Fin 1))).toInt.toNat 4095, by omega⟩

/-- The dimension numbers of a row gather from a `(4096, C)` table at `(500000, 1)` start indices: the result's axis 1
    is the offset axis and reads the table's axis 1 whole (slice sizes `[1, C]`); the table's axis 0 is collapsed and
    is the one the start index addresses; the start indices' axis 1 is the index vector's. -/
abbrev rowDims (C : Nat)
    (wf : GatherDims.WF ⟨2, ![4096, C]⟩ ⟨2, ![500000, 1]⟩ ⟨2, ![500000, C]⟩ [1] [0] [] [0] [] 1 ![1, C]) :
    GatherDims ⟨2, ![4096, C]⟩ ⟨2, ![500000, 1]⟩ ⟨2, ![500000, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(n, c)`: the table at row `gRow idx n`, column `c`. On the table's axis 0 the operand index
    is the clamped start index alone (no batching axes; a collapsed axis has offset 0); on its axis 1 the start is 0 (the
    axis is not in the start index map) and the offset is the result's coordinate on its offset axis 1. -/
theorem gatherRows_apply {α : Type} {C : Nat}
    (wf : GatherDims.WF ⟨2, ![4096, C]⟩ ⟨2, ![500000, 1]⟩ ⟨2, ![500000, C]⟩ [1] [0] [] [0] [] 1 ![1, C])
    (x : (⟨2, ![4096, C]⟩ : Shape).Idx → α) (idx : IVec (⟨2, ![500000, 1]⟩ : Shape) 32)
    (n : Fin 500000) (c : Fin C) :
    Host.gather (rowDims C wf) x idx (ix2 n c) = x (ix2 (gRow idx n) c) := by
  unfold Host.gather
  congr 1
  funext a
  refine Fin.ext ?_
  match a with
  | ⟨0, _⟩ =>
    show (rowDims C wf).start (ix2 n c) idx 0 + (rowDims C wf).batchCoord (ix2 n c) 0
      + (rowDims C wf).offCoord (ix2 n c) 0 = (gRow idx n).val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims C wf).startIndexMap from List.mem_singleton.mpr rfl)]
    have hsi : (rowDims C wf).siIdx (ix2 n c) ⟨List.idxOf (0 : Fin 2) (rowDims C wf).startIndexMap,
        List.idxOf_lt_length_iff.2 (List.mem_singleton.mpr rfl)⟩ = ix2 n (0 : Fin 1) := by
      funext b; refine Fin.ext ?_
      match b with
      | ⟨0, _⟩ => rfl
      | ⟨1, _⟩ => rfl
    rw [hsi]
    rfl
  | ⟨1, _⟩ =>
    show (rowDims C wf).start (ix2 n c) idx 1 + (rowDims C wf).batchCoord (ix2 n c) 1
      + (rowDims C wf).offCoord (ix2 n c) 1 = c.val
    have hstart : (rowDims C wf).start (ix2 n c) idx 1 = 0 := by
      unfold GatherDims.start
      rw [dif_neg (show ¬ (1 : Fin 2) ∈ ([0] : List (Fin 2)) by decide)]
    have hkept : (1 : Fin 2) ∈ (rowDims C wf).sKept :=
      (GatherDims.mem_sKept _ _).mpr ⟨show ¬ (1 : Fin 2) ∈ ([0] : List (Fin 2)) by decide, List.not_mem_nil⟩
    have hoff : (rowDims C wf).offCoord (ix2 n c) 1 = c.val := by
      unfold GatherDims.offCoord
      rw [dif_pos hkept]
      rfl
    rw [hstart, GatherDims.batchCoord_eq_zero _ _ _ List.not_mem_nil, hoff, Nat.zero_add]

theorem gather2_apply {α : Type} (x : (⟨2, ![4096, 2]⟩ : Shape).Idx → α) (idx : IVec (⟨2, ![500000, 1]⟩ : Shape) 32)
    (n : Fin 500000) (j : Fin 2) :
    Host.gather Cert.KernelIdeal.gather_S4096x2_S500000x1_S500000x2_1_0_n_n_0_1_12 x idx (ix2 n j) = x (ix2 (gRow idx n) j) :=
  gatherRows_apply Cert.KernelIdeal.Facts₀.gather_S4096x2_S500000x1_S500000x2_1_0_n_n_0_1_12_wf x idx n j

theorem gather128_apply {α : Type} (x : (⟨2, ![4096, 128]⟩ : Shape).Idx → α) (idx : IVec (⟨2, ![500000, 1]⟩ : Shape) 32)
    (n : Fin 500000) (d : Fin 128) :
    Host.gather Cert.ReferenceIdeal.gather_S4096x128_S500000x1_S500000x128_1_0_n_n_0_1_1128 x idx (ix2 n d) = x (ix2 (gRow idx n) d) :=
  gatherRows_apply Cert.ReferenceIdeal.Facts₀.gather_S4096x128_S500000x1_S500000x128_1_0_n_n_0_1_1128_wf x idx n d

end Cert.Bridge

end
-- ==== Proof.LayoutReads.lean ====
/-
  The host's layout operations of this kernel read at an index: zero padding of the atom axis from 500000 to 503808
  rows read at a row below 500000 is the operand's row; the slice back to 500000 rows reads the same row; a
  transposition swaps the two coordinates; and at the exact instance a change of float format is the identity.
-/
import proofs.«114423_j17179869975_2_alg».proof.Proof.Gen.KernelIdeal
import Idealize.ShloMosaic.Lib.ValueIdx
import Idealize.ShloMosaic.Lib.Pipeline.Value
import Idealize.ShloMosaic.Lib.KernelVsHost
import Idealize.ShloMosaic.PureOps.Ideal.Laws

noncomputable section

namespace Cert.Bridge

open Idealize.ShloMosaic Idealize.ShloMosaic.ValueIdx Cert.KernelIdeal Cert.KernelIdeal.Facts₀

/-- Atom `n` as a row of the padded arrays. -/
def padRow (n : Fin 500000) : Fin 503808 := ⟨n.val, by omega⟩

theorem pad_rows128 {α : Type} (x : S500000x128.Idx → α) (v : S_.Idx → α) (n : Fin 500000) (j : Fin 128) :
    pad S503808x128 ![0, 0] ![3808, 0] ![0, 0] x v pads_S500000x128_S503808x128_038080_000 h_S_ (ix2 (padRow n) j) = x (ix2 n j) := by
  refine pad_apply_of_inside _ _ _ x v _ _ (ix2 (padRow n) j) (ix2 n j) (fun a => ?_)
  match a with
  | ⟨0, _⟩ => show n.val = 0 + n.val * (0 + 1); omega
  | ⟨1, _⟩ => show j.val = 0 + j.val * (0 + 1); omega

theorem pad_rows2 {α : Type} (x : S500000x2.Idx → α) (v : S_.Idx → α) (n : Fin 500000) (j : Fin 2) :
    pad S503808x2 ![0, 0] ![3808, 0] ![0, 0] x v pads_S500000x2_S503808x2_038080_000 h_S_ (ix2 (padRow n) j) = x (ix2 n j) := by
  refine pad_apply_of_inside _ _ _ x v _ _ (ix2 (padRow n) j) (ix2 n j) (fun a => ?_)
  match a with
  | ⟨0, _⟩ => show n.val = 0 + n.val * (0 + 1); omega
  | ⟨1, _⟩ => show j.val = 0 + j.val * (0 + 1); omega

theorem pad_rows1 {α : Type} (x : S500000.Idx → α) (v : S_.Idx → α) (n : Fin 500000) :
    pad S503808 ![0] ![3808] ![0] x v pads_S500000_S503808_038080 h_S_ (ix1 (padRow n)) = x (ix1 n) := by
  refine pad_apply_of_inside _ _ _ x v _ _ (ix1 (padRow n)) (ix1 n) (fun a => ?_)
  match a with
  | ⟨0, _⟩ => show n.val = 0 + n.val * (0 + 1); omega

theorem slice_rows1 {α : Type} (x : S503808.Idx → α) (n : Fin 500000) :
    extractStridedSlice S500000 ![0] x slices_S503808_S500000_0 (ix1 n) = x (ix1 (padRow n)) := by
  refine extractStridedSlice_apply _ x _ (ix1 n) (ix1 (padRow n)) (fun a => ?_)
  match a with
  | ⟨0, _⟩ => show n.val = 0 + n.val; omega

theorem slice_rows128 {α : Type} (x : S503808x128.Idx → α) (n : Fin 500000) (d : Fin 128) :
    extractStridedSlice S500000x128 ![0, 0] x slices_S503808x128_S500000x128_0_0 (ix2 n d) = x (ix2 (padRow n) d) := by
  refine extractStridedSlice_apply _ x _ (ix2 n d) (ix2 (padRow n) d) (fun a => ?_)
  match a with
  | ⟨0, _⟩ => show n.val = 0 + n.val; omega
  | ⟨1, _⟩ => show d.val = 0 + d.val; omega

theorem transpose_2x128_apply {α : Type} (x : S128x2.Idx → α) (j : Fin 2) (d : Fin 128) :
    transpose S2x128 [1, 0] x transposes_S128x2_S2x128_1_0 (ix2 j d) = x (ix2 d j) := by
  exact transpose_apply [1, 0] x transposes_S128x2_S2x128_1_0 (ix2 j d) (ix2 d j) (fun b => match b with
    | ⟨0, _⟩ => rfl
    | ⟨1, _⟩ => rfl)

theorem transpose_128x128_apply {α : Type} (x : S128x128.Idx → α) (j d : Fin 128) :
    transpose S128x128 [1, 0] x transposes_S128x128_S128x128_1_0 (ix2 j d) = x (ix2 d j) := by
  exact transpose_apply [1, 0] x transposes_S128x128_S128x128_1_0 (ix2 j d) (ix2 d j) (fun b => match b with
    | ⟨0, _⟩ => rfl
    | ⟨1, _⟩ => rfl)

/-- Rounding to bf16 is the identity on the extended reals. -/
theorem truncf_bf16_apply (x : FVec Ideal S128x128 .f32) (i : S128x128.Idx) :
    (truncf .bf16 x bitsLt_bf16_f32 : FVec Ideal S128x128 .bf16) i = x i := by
  rfl

end Cert.Bridge

end
-- ==== Proof.KernelA.lean ====
/-
  The first region's result. Grid point t stages rows 4096·t … 4096·t + 4095 of the zero-padded atom array and of the
  padded gathered charge features, and the whole transposed weights; it writes back rows 4096·t … of the weight array.
  Row n < 500000 of that array is therefore the reference's softplus weight of atom n: the block's row is atom n's row
  (the padding is above row 500000), the gathered feature row is the molecule's table row, and one row of the body
  against the reference is the row lemma.
-/
import proofs.«114423_j17179869975_2_alg».proof.Proof.Gen.KernelIdeal.Frame
import proofs.«114423_j17179869975_2_alg».proof.Proof.Gen.ReferenceIdeal.Read
import proofs.«114423_j17179869975_2_alg».proof.Proof.QkRow
import proofs.«114423_j17179869975_2_alg».proof.Proof.GatherRows
import proofs.«114423_j17179869975_2_alg».proof.Proof.LayoutReads
import Idealize.ShloMosaic.Lib.StableHlo.Run
import Idealize.ShloMosaic.Lib.Pipeline.Value
import Idealize.ShloMosaic.Lib.ValueIdx

set_option maxRecDepth 16384

noncomputable section

namespace Cert.KernelIdeal.Val

open Cert.KernelIdeal Cert.KernelIdeal.Gen Cert.Bridge Cert.ReferenceIdeal.Read
open Idealize.ShloMosaic Idealize.ShloMosaic.TcCoe Idealize.SL.Sem Idealize.ShloMosaic.StableHlo Idealize.ShloMosaic.ValueIdx
open Idealize.ShloMosaic.Pipeline (Dat Cfg Window)

variable (m : (ℓ : Loc nD τ sig) → Buf (Elt Ideal) ℓ) (ρ : Dev nD → PrngReg)

/-! ## What the region finds in its arrays: the host operations before it, read back -/

theorem V9_atom (c : Dev nD) :
    (V9 m ρ c main_v24 : S503808x128.Idx → EReal)
      = pad S503808x128 ![0, 0] ![3808, 0] ![0, 0] (m ((c : Thread nD τ).loc main_arg0) : S500000x128.Idx → EReal)
          (sitofp (F := Ideal) .f32 (constantI S_ 32 0#32)) pads_S500000x128_S503808x128_038080_000 h_S_ := by
  dsimp only [V9, W9, W8, W7, W6, W5, W4, W3, W2, W1, W0]
  after_results_simp
  rfl

set_option maxHeartbeats 4000000 in
theorem V9_egk (c : Dev nD) :
    (V9 m ρ c main_v22 : S503808x2.Idx → EReal)
      = pad S503808x2 ![0, 0] ![3808, 0] ![0, 0]
          (Host.gather gather_S4096x2_S500000x1_S500000x2_1_0_n_n_0_1_12
            (val_main_v12 (F := Ideal) (m ((c : Thread nD τ).loc main_arg1)))
            (val_main_v20 (F := Ideal) (m ((c : Thread nD τ).loc main_arg2))))
          (sitofp (F := Ideal) .f32 (constantI S_ 32 0#32)) pads_S500000x2_S503808x2_038080_000 h_S_ := by
  dsimp only [V9, W9, W8, W7, W6, W5, W4, W3, W2, W1, W0]
  after_results_simp
  rfl

theorem V9_wqt (c : Dev nD) :
    (V9 m ρ c main_v28 : S128x128.Idx → EReal)
      = (truncf (F := Ideal) .bf16 (transpose S128x128 [1, 0] (m ((c : Thread nD τ).loc main_arg3) : S128x128.Idx → EReal) transposes_S128x128_S128x128_1_0) bitsLt_bf16_f32 : S128x128.Idx → EReal) := by
  dsimp only [V9, W9, W8, W7, W6, W5, W4, W3, W2, W1, W0]
  after_results_simp
  try rfl

theorem V9_bq (c : Dev nD) : V9 m ρ c main_arg4 = m ((c : Thread nD τ).loc main_arg4) := by
  dsimp only [V9, W9, W8, W7, W6, W5, W4, W3, W2, W1, W0]
  after_results_simp
  try rfl

theorem V9_wkt (c : Dev nD) :
    (V9 m ρ c main_v25 : S2x128.Idx → EReal)
      = transpose S2x128 [1, 0] (m ((c : Thread nD τ).loc main_arg5) : S128x2.Idx → EReal) transposes_S128x2_S2x128_1_0 := by
  dsimp only [V9, W9, W8, W7, W6, W5, W4, W3, W2, W1, W0]
  after_results_simp
  try rfl

/-! ## The windows' blocks, element by element -/

section Blocks
variable (V : (c : Dev nD) → (b : Ref sig .tc) → Buf (Elt Ideal) ((c : Thread nD τ).loc b))

/-- The printed index maps over the grid: the row-blocked windows are at block t, the weights at block 0. -/
theorem idx0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = t.val :=
  (by decide +kernel : ∀ t : Fin grid0.N, _)

theorem hz1 : (![0] : Fin 1 → Nat) = fun _ => 0 := funext fun a => by fin_cases a <;> rfl
theorem hz2 : (![0, 0] : Fin 2 → Nat) = fun _ => 0 := funext fun a => by fin_cases a <;> rfl

theorem row_lt (t : Fin cfg0.N) (r : Fin 4096) : t.val * 4096 + r.val < 503808 := by
  have h := t.isLt
  have hN : cfg0.N = 123 := N_0
  have := r.isLt; omega

theorem blk0_0 (c : Dev nD) (t : Fin cfg0.N) (r : Fin 4096) (j : Fin 128) :
    iblk0 V c 0 t (ix2 r j) = (V c main_v24 : S503808x128.Idx → EReal) (ix2 ⟨t.val * 4096 + r.val, row_lt t r⟩ j) := by
  show V c main_v24 (((cfg0.win 0).blk t).view.emb (ix2 r j)) = _
  obtain ⟨e0, e1, -⟩ := idx0 t
  refine congrArg _ (funext fun a => Fin.ext ?_)
  match a with
  | ⟨0, _⟩ => show win0_0.index t (0 : Fin 2) * 4096 + 1 * r.val = t.val * 4096 + r.val; rw [e0]; omega
  | ⟨1, _⟩ => show win0_0.index t (1 : Fin 2) * 128 + 1 * j.val = j.val; rw [e1]; omega

theorem blk0_1 (c : Dev nD) (t : Fin cfg0.N) (r : Fin 4096) (j : Fin 2) :
    iblk0 V c 1 t (ix2 r j) = (V c main_v22 : S503808x2.Idx → EReal) (ix2 ⟨t.val * 4096 + r.val, row_lt t r⟩ j) := by
  show V c main_v22 (((cfg0.win 1).blk t).view.emb (ix2 r j)) = _
  obtain ⟨-, -, e0, e1, -⟩ := idx0 t
  refine congrArg _ (funext fun a => Fin.ext ?_)
  match a with
  | ⟨0, _⟩ => show win0_1.index t (0 : Fin 2) * 4096 + 1 * r.val = t.val * 4096 + r.val; rw [e0]; omega
  | ⟨1, _⟩ => show win0_1.index t (1 : Fin 2) * 2 + 1 * j.val = j.val; rw [e1]; omega

theorem blk0_2 (c : Dev nD) (t : Fin cfg0.N) (j d : Fin 128) :
    iblk0 V c 2 t (ix2 j d) = (V c main_v28 : S128x128.Idx → EReal) (ix2 j d) := by
  show V c main_v28 (((cfg0.win 2).blk t).view.emb (ix2 j d)) = _
  obtain ⟨-, -, -, -, e0, e1, -⟩ := idx0 t
  refine congrArg _ (funext fun a => Fin.ext ?_)
  match a with
  | ⟨0, _⟩ => show win0_2.index t (0 : Fin 2) * 128 + 1 * j.val = j.val; rw [e0]; omega
  | ⟨1, _⟩ => show win0_2.index t (1 : Fin 2) * 128 + 1 * d.val = d.val; rw [e1]; omega

theorem blk0_3 (c : Dev nD) (t : Fin cfg0.N) (d : Fin 128) :
    iblk0 V c 3 t (ix1 d) = (V c main_arg4 : S128.Idx → EReal) (ix1 d) := by
  show V c main_arg4 (((cfg0.win 3).blk t).view.emb (ix1 d)) = _
  obtain ⟨-, -, -, -, -, -, e0, -⟩ := idx0 t
  refine congrArg _ (funext fun a => Fin.ext ?_)
  match a with
  | ⟨0, _⟩ => show win0_3.index t (0 : Fin 1) * 128 + 1 * d.val = d.val; rw [e0]; omega

theorem blk0_4 (c : Dev nD) (t : Fin cfg0.N) (j : Fin 2) (d : Fin 128) :
    iblk0 V c 4 t (ix2 j d) = (V c main_v25 : S2x128.Idx → EReal) (ix2 j d) := by
  show V c main_v25 (((cfg0.win 4).blk t).view.emb (ix2 j d)) = _
  obtain ⟨-, -, -, -, -, -, -, e0, e1, -⟩ := idx0 t
  refine congrArg _ (funext fun a => Fin.ext ?_)
  match a with
  | ⟨0, _⟩ => show win0_4.index t (0 : Fin 2) * 2 + 1 * j.val = j.val; rw [e0]; omega
  | ⟨1, _⟩ => show win0_4.index t (1 : Fin 2) * 128 + 1 * d.val = d.val; rw [e1]; omega

/-- What point t writes back is the body's payload of the point's input blocks. -/
theorem flushed0 (c : Dev nD) (t : Fin cfg0.N) :
    (dat0 V c).flushed 5 t = k0_pay1 (iblk0 V c 1 t) (iblk0 V c 4 t) (iblk0 V c 0 t) (iblk0 V c 2 t) (iblk0 V c 3 t) := by
  show (cfg0.win 5).cut (grid0.coords t) ((dat0 V c).after 5 t) = _
  rw [after0_5]
  unfold out0_5
  rw [View.canon_unit_zero hz1]
  simp only [View.ld_unit_zero (S := S4096x2) hz2, View.ld_unit_zero (S := S2x128) hz2, View.ld_unit_zero (S := S4096x128) hz2,
    View.ld_unit_zero (S := S128x128) hz2, View.ld_unit_zero (S := S128) hz1]
  rfl

/-- An index of the weight array is in point t's block iff its row is among the block's 4096 rows. -/
theorem mem_blk0_5 (t : Fin cfg0.N) (i : S503808.Idx) :
    i ∈ ((cfg0.win 5).blk t).view.set ↔ ∀ a : Fin 1, win0_5.index t a * S4096.size a ≤ (i a).val ∧ (i a).val < win0_5.index t a * S4096.size a + S4096.size a := by
  show i ∈ ((View.whole main_v35).slice (win0_5.rect t)).set ↔ _
  rw [View.set_slice_whole, Rect.mem_set_unit]
  exact Iff.rfl

/-- Every row of the padded weight array is in the block of the point numbered by its row divided by 4096. -/
theorem cover0 (i : S503808.Idx) : ∃ t : Fin cfg0.N, (cfg0.win 5).flush t = true ∧ i ∈ ((cfg0.win 5).blk t).view.set := by
  have hi : (i 0).val < 503808 := (i 0).isLt
  have hN : cfg0.N = 123 := N_0
  refine ⟨⟨(i 0).val / 4096, by rw [hN]; omega⟩, flush0_5 _, ?_⟩
  rw [mem_blk0_5]
  intro a
  obtain ⟨-, -, -, -, -, -, -, -, -, e⟩ := idx0 ⟨(i 0).val / 4096, by rw [hN]; omega⟩
  match a with
  | ⟨0, _⟩ =>
    show win0_5.index ⟨(i 0).val / 4096, _⟩ (0 : Fin 1) * 4096 ≤ (i 0).val ∧ (i 0).val < win0_5.index ⟨(i 0).val / 4096, _⟩ (0 : Fin 1) * 4096 + 4096
    rw [e]; show (i 0).val / 4096 * 4096 ≤ (i 0).val ∧ (i 0).val < (i 0).val / 4096 * 4096 + 4096; omega

end Blocks

/-! ## The weight array after the region -/

/-- Row r of what point t writes back is the reference's weight of atom 4096·t + r, when that is an atom. -/
theorem a_elem (c : Dev nD) (t : Fin cfg0.N) (r : Fin 4096) (h : t.val * 4096 + r.val < 500000) :
    (dat0 (V9 m ρ) c).flushed 5 t (ix1 r)
      = val_main_v35 (F := Ideal) (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (ix1 ⟨t.val * 4096 + r.val, h⟩) := by
  rw [flushed0]
  refine qk_row (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (iblk0 (V9 m ρ) c 0 t) (iblk0 (V9 m ρ) c 1 t) (iblk0 (V9 m ρ) c 2 t) (iblk0 (V9 m ρ) c 3 t) (iblk0 (V9 m ρ) c 4 t)
    ⟨t.val * 4096 + r.val, h⟩ r (gRow (val_main_v20 (F := Ideal) (m ((c : Thread nD τ).loc main_arg2))) ⟨t.val * 4096 + r.val, h⟩) ?_ ?_ ?_ ?_ ?_ ?_
  · intro j
    rw [blk0_0, V9_atom]
    exact pad_rows128 _ _ ⟨t.val * 4096 + r.val, h⟩ j
  · intro j
    rw [blk0_1, V9_egk]
    exact (pad_rows2 _ _ ⟨t.val * 4096 + r.val, h⟩ j).trans (gather2_apply _ _ _ j)
  · intro d
    unfold val_main_v21
    exact gather128_apply _ _ _ d
  · intro j d
    rw [blk0_2, V9_wqt]
    exact (truncf_bf16_apply _ _).trans (transpose_128x128_apply _ j d)
  · intro d
    rw [blk0_3, V9_bq]
  · intro j d
    rw [blk0_4, V9_wkt]
    exact transpose_2x128_apply _ j d

/-- THE WEIGHT ARRAY after the first region: row n < 500000 holds the reference's weight of atom n. -/
theorem a_final (c : Dev nD) (n : Fin 500000) :
    ((dat0 (V9 m ρ) c).arrAt 5 cfg0.N : S503808.Idx → EReal) (ix1 (padRow n))
      = val_main_v35 (F := Ideal) (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (ix1 n) := by
  have key := (dat0 (V9 m ρ) c).arrAt_forall_of_cover 5
    (fun (i : S503808.Idx) (v : EReal) => ∀ h : (i 0).val < 500000,
      v = val_main_v35 (F := Ideal) (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (ix1 ⟨(i 0).val, h⟩))
    (fun t hf y h => by
      obtain ⟨r, rfl⟩ : ∃ r : Fin 4096, y = ix1 r := ⟨y 0, eq_ix1 y⟩
      obtain ⟨-, -, -, -, -, -, -, -, -, e⟩ := idx0 t
      have hv : ((((cfg0.win 5).blk t).view.emb (ix1 r)) 0).val = t.val * 4096 + r.val := by
        show win0_5.index t (0 : Fin 1) * 4096 + 1 * r.val = _
        rw [e]; omega
      have h' : t.val * 4096 + r.val < 500000 := hv ▸ h
      rw [cast_eq]
      exact (a_elem m ρ c t r h').trans (congrArg _ (congrArg ix1 (Fin.ext hv.symm))))
    cover0 (ix1 (padRow n))
  exact key n.isLt

end Cert.KernelIdeal.Val

end
-- ==== Proof.KernelMid.lean ====
/-
  Between the two regions. The host slices the first region's weight array back to the 500000 atoms, sums it per molecule
  (a scatter-add by the segment ids) and gathers the sums back to the atoms, and pads both to the blocked length; the
  gathered value features, the transposed weights and the biases were prepared before the first region and pass through it
  untouched. The sliced weight array is the reference's weight array, so its segment sums, taken by the same operations
  of the same segment ids, are the reference's.
-/
import proofs.«114423_j17179869975_2_alg».proof.Proof.Gen.KernelIdeal.Frame
import proofs.«114423_j17179869975_2_alg».proof.Proof.Gen.ReferenceIdeal.Read
import proofs.«114423_j17179869975_2_alg».proof.Proof.KernelA
import Idealize.ShloMosaic.Lib.StableHlo.Run
import Idealize.ShloMosaic.Lib.Pipeline.Value
import Idealize.ShloMosaic.Lib.ValueIdx

set_option maxRecDepth 16384

noncomputable section

namespace Cert.KernelIdeal.Val

open Cert.KernelIdeal Cert.KernelIdeal.Gen Cert.Bridge Cert.ReferenceIdeal.Read
open Idealize.ShloMosaic Idealize.ShloMosaic.TcCoe Idealize.SL.Sem Idealize.ShloMosaic.StableHlo Idealize.ShloMosaic.ValueIdx
open Idealize.ShloMosaic.Pipeline (Dat Cfg Window)

variable (m : (ℓ : Loc nD τ sig) → Buf (Elt Ideal) ℓ) (ρ : Dev nD → PrngReg)

/-- The atoms' weights as the second region's host side sees them: the first region's array cut back to the atoms. -/
def aK (c : Dev nD) : FVec Ideal S500000 .f32 :=
  extractStridedSlice S500000 ![0] ((dat0 (V9 m ρ) c).arrAt 5 cfg0.N : S503808.Idx → EReal) slices_S503808_S500000_0

/-- It is the reference's weight array. -/
theorem aK_eq (c : Dev nD) :
    aK m ρ c = val_main_v35 (F := Ideal) (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  funext i
  obtain ⟨n, rfl⟩ : ∃ n : Fin 500000, i = ix1 n := ⟨i 0, eq_ix1 i⟩
  unfold aK
  rw [slice_rows1]
  exact a_final m ρ c n

/-- Segment sums gathered back to the atoms, as a function of the weights and the segment ids (the reference's own
    operations, named). -/
def segNorm (a : FVec Ideal S500000 .f32) (seg : (⟨S500000, .i32⟩ : BufTy).Contents (Elt Ideal)) : FVec Ideal S500000 .f32 :=
  Host.gather gather_S4096_S500000x1_S500000_n_0_n_n_0_1_1
    (Host.scatterAdd (F := Ideal) (φ := .f32) scatter_S4096_S500000x1_S500000_n_0_0_1 (val_main_v36 (F := Ideal)) (val_main_v37 (F := Ideal) seg) a)
    (val_main_v44 (F := Ideal) seg)

theorem segNorm_ref (c : Dev nD) :
    segNorm (val_main_v35 (F := Ideal) (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))) (m ((c : Thread nD τ).loc main_arg2))
      = val_main_v45 (F := Ideal) (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  unfold segNorm val_main_v45 val_main_v38
  rfl

theorem V14_a (c : Dev nD) :
    (V14 m ρ c main_v47 : S503808.Idx → EReal)
      = pad S503808 ![0] ![3808] ![0] (aK m ρ c) (sitofp (F := Ideal) .f32 (constantI S_ 32 0#32)) pads_S500000_S503808_038080 h_S_ := by
  dsimp only [V14, W14, W13, W12, W11]
  after_results_simp
  rw [show W10 m ρ c (Proc.devRef .tc main_v35) = _ from W10_arr m ρ c 5]
  rfl

set_option maxHeartbeats 4000000 in
theorem V14_norm (c : Dev nD) :
    (V14 m ρ c main_v48 : S503808.Idx → EReal)
      = pad S503808 ![0] ![3808] ![0] (segNorm (aK m ρ c) (m ((c : Thread nD τ).loc main_arg2)))
          (sitofp (F := Ideal) .f32 (constantI S_ 32 0#32)) pads_S500000_S503808_038080 h_S_ := by
  dsimp only [V14, W14, W13, W12, W11]
  after_results_simp
  rw [show W10 m ρ c (Proc.devRef .tc main_v35) = _ from W10_arr m ρ c 5,
    W10_of_ne m ρ c main_arg2 (by decide)]
  dsimp only [W9, W8, W7, W6, W5, W4, W3, W2, W1, W0]
  after_results_simp
  try rfl

set_option maxHeartbeats 4000000 in
theorem V14_egv (c : Dev nD) :
    (V14 m ρ c main_v23 : S503808x2.Idx → EReal)
      = pad S503808x2 ![0, 0] ![3808, 0] ![0, 0]
          (Host.gather gather_S4096x2_S500000x1_S500000x2_1_0_n_n_0_1_12
            (val_main_v9 (F := Ideal) (m ((c : Thread nD τ).loc main_arg1)))
            (val_main_v29 (F := Ideal) (m ((c : Thread nD τ).loc main_arg2))))
          (sitofp (F := Ideal) .f32 (constantI S_ 32 0#32)) pads_S500000x2_S503808x2_038080_000 h_S_ := by
  dsimp only [V14, W14, W13, W12, W11]
  after_results_simp
  rw [W10_of_ne m ρ c main_v23 (by decide)]
  dsimp only [W9, W8, W7, W6, W5, W4, W3, W2, W1, W0]
  after_results_simp
  try rfl

theorem V14_wvt (c : Dev nD) :
    (V14 m ρ c main_v26 : S2x128.Idx → EReal)
      = transpose S2x128 [1, 0] (m ((c : Thread nD τ).loc main_arg6) : S128x2.Idx → EReal) transposes_S128x2_S2x128_1_0 := by
  dsimp only [V14, W14, W13, W12, W11]
  after_results_simp
  rw [W10_of_ne m ρ c main_v26 (by decide)]
  dsimp only [W9, W8, W7, W6, W5, W4, W3, W2, W1, W0]
  after_results_simp
  try rfl

theorem V14_w1t (c : Dev nD) :
    (V14 m ρ c main_v30 : S128x128.Idx → EReal)
      = (truncf (F := Ideal) .bf16 (transpose S128x128 [1, 0] (m ((c : Thread nD τ).loc main_arg7) : S128x128.Idx → EReal) transposes_S128x128_S128x128_1_0) bitsLt_bf16_f32 : S128x128.Idx → EReal) := by
  dsimp only [V14, W14, W13, W12, W11]
  after_results_simp
  rw [W10_of_ne m ρ c main_v30 (by decide)]
  dsimp only [W9, W8, W7, W6, W5, W4, W3, W2, W1, W0]
  after_results_simp
  try rfl

theorem V14_w2t (c : Dev nD) :
    (V14 m ρ c main_v32 : S128x128.Idx → EReal)
      = (truncf (F := Ideal) .bf16 (transpose S128x128 [1, 0] (m ((c : Thread nD τ).loc main_arg9) : S128x128.Idx → EReal) transposes_S128x128_S128x128_1_0) bitsLt_bf16_f32 : S128x128.Idx → EReal) := by
  dsimp only [V14, W14, W13, W12, W11]
  after_results_simp
  rw [W10_of_ne m ρ c main_v32 (by decide)]
  dsimp only [W9, W8, W7, W6, W5, W4, W3, W2, W1, W0]
  after_results_simp
  try rfl

theorem V14_woutt (c : Dev nD) :
    (V14 m ρ c main_v34 : S128x128.Idx → EReal)
      = (truncf (F := Ideal) .bf16 (transpose S128x128 [1, 0] (m ((c : Thread nD τ).loc main_arg11) : S128x128.Idx → EReal) transposes_S128x128_S128x128_1_0) bitsLt_bf16_f32 : S128x128.Idx → EReal) := by
  dsimp only [V14, W14, W13, W12, W11]
  after_results_simp
  rw [W10_of_ne m ρ c main_v34 (by decide)]
  dsimp only [W9, W8, W7, W6, W5, W4, W3, W2, W1, W0]
  after_results_simp
  try rfl

theorem V14_b1 (c : Dev nD) :
    (V14 m ρ c main_arg8 : S128.Idx → EReal)
      = (m ((c : Thread nD τ).loc main_arg8) : S128.Idx → EReal) := by
  dsimp only [V14, W14, W13, W12, W11]
  after_results_simp
  rw [W10_of_ne m ρ c main_arg8 (by decide)]
  dsimp only [W9, W8, W7, W6, W5, W4, W3, W2, W1, W0]
  after_results_simp
  try rfl

theorem V14_b2 (c : Dev nD) :
    (V14 m ρ c main_arg10 : S128.Idx → EReal)
      = (m ((c : Thread nD τ).loc main_arg10) : S128.Idx → EReal) := by
  dsimp only [V14, W14, W13, W12, W11]
  after_results_simp
  rw [W10_of_ne m ρ c main_arg10 (by decide)]
  dsimp only [W9, W8, W7, W6, W5, W4, W3, W2, W1, W0]
  after_results_simp
  try rfl

end Cert.KernelIdeal.Val

end
-- ==== Proof.OutRow.lean ====
/-
  One row of the second kernel against the reference. Row r of a grid point's block holds atom n's attention weight a,
  its segment sum, the two charge features of its molecule (table row ρ) and the whole (transposed) weights. The body
  computes v = e0·Wvᵀ[0,:] + e1·Wvᵀ[1,:], x = (a / (norm + ε))·v, the residual block x + (silu(silu(x)·W1ᵀ + b1)·W2ᵀ + b2)
  and silu of it times Woutᵀ; the reference computes the same on the whole arrays, associating the last sum the other way.
-/
import proofs.«114423_j17179869975_2_alg».proof.Proof.Gen.KernelIdeal.Skeleton
import proofs.«114423_j17179869975_2_alg».proof.Proof.Gen.ReferenceIdeal.Read
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

noncomputable section

namespace Cert.Bridge

open Idealize.ShloMosaic Idealize.ShloMosaic.ValueIdx Cert.ReferenceIdeal Cert.ReferenceIdeal.Read

/-! ## The pieces both sides are made of -/

/-- `silu y = y · logistic y` on the extended reals. -/
def silu (y : EReal) : EReal := y * Ideal.logistic y

/-- The logistic of a vector, read at an index. -/
theorem logistic_apply {s : Shape} {φ : FTy} (a : FVec Ideal s φ) (i : s.Idx) :
    logistic a i = Ideal.logistic (a i) := rfl

/-- `x · logistic x` of a vector at an index is `silu` of the element. -/
theorem mulf_logistic_apply {s : Shape} {φ : FTy} (a : FVec Ideal s φ) (i : s.Idx) :
    mulf a (logistic a) i = silu (a i) := rfl

/-- The host's spelling `y · (1 / (1 + exp (−y)))`, the two ones as f32 patterns, is `silu y`. -/
theorem host_silu (y : Ideal .f32) :
    FloatOps.mulf y (FloatOps.hostDivf (FloatOps.ofBits (F := Ideal) .f32 0x3F800000#32)
      (FloatOps.addf (FloatOps.ofBits (F := Ideal) .f32 0x3F800000#32) (FloatOps.hostUnary .exp (FloatOps.hostNegf y)))) = silu y := by
  show y * Ideal.div (Ideal.ofBits .f32 0x3F800000#32) (Ideal.ofBits .f32 0x3F800000#32 + Ideal.exp (-y)) = y * Ideal.logistic y
  rw [Ideal.ofBits_one_f32]; rfl

/-! ## Layout operations the kernel uses, read at an index -/

section Layout
variable {α : Type}

/-- An `[a]` array cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The kernel's matrix product at an index -/

theorem kdot_lhs_0 (i : Cert.KernelIdeal.S4096x128.Idx) (q : Cert.KernelIdeal.dot_S4096x128_S128x128_S4096x128_1_0_0_1_n_n.contr.Idx) :
    (Cert.KernelIdeal.dot_S4096x128_S128x128_S4096x128_1_0_0_1_n_n.lhsIdx i q 0).val = (i 0).val := by
  unfold DotDims.lhsIdx
  rw [dif_neg (show ¬(0 : Fin Cert.KernelIdeal.S4096x128.rank) ∈ Cert.KernelIdeal.dot_S4096x128_S128x128_S4096x128_1_0_0_1_n_n.lhsBatch by decide), dif_pos (show (0 : Fin Cert.KernelIdeal.S4096x128.rank) ∈ Cert.KernelIdeal.dot_S4096x128_S128x128_S4096x128_1_0_0_1_n_n.lhsNonContracting by decide)]
  rfl
theorem kdot_lhs_1 (i : Cert.KernelIdeal.S4096x128.Idx) (q : Cert.KernelIdeal.dot_S4096x128_S128x128_S4096x128_1_0_0_1_n_n.contr.Idx) :
    (Cert.KernelIdeal.dot_S4096x128_S128x128_S4096x128_1_0_0_1_n_n.lhsIdx i q 1).val = (q ⟨0, by decide⟩).val :=
  Cert.KernelIdeal.dot_S4096x128_S128x128_S4096x128_1_0_0_1_n_n.lhsIdx_val_of_single rfl i q
theorem kdot_rhs_0 (i : Cert.KernelIdeal.S4096x128.Idx) (q : Cert.KernelIdeal.dot_S4096x128_S128x128_S4096x128_1_0_0_1_n_n.contr.Idx) :
    (Cert.KernelIdeal.dot_S4096x128_S128x128_S4096x128_1_0_0_1_n_n.rhsIdx i q 0).val = (q ⟨0, by decide⟩).val :=
  Cert.KernelIdeal.dot_S4096x128_S128x128_S4096x128_1_0_0_1_n_n.rhsIdx_val_of_single rfl i q
theorem kdot_rhs_1 (i : Cert.KernelIdeal.S4096x128.Idx) (q : Cert.KernelIdeal.dot_S4096x128_S128x128_S4096x128_1_0_0_1_n_n.contr.Idx) :
    (Cert.KernelIdeal.dot_S4096x128_S128x128_S4096x128_1_0_0_1_n_n.rhsIdx i q 1).val = (i 1).val := by
  unfold DotDims.rhsIdx
  rw [dif_neg (show ¬(1 : Fin Cert.KernelIdeal.S128x128.rank) ∈ Cert.KernelIdeal.dot_S4096x128_S128x128_S4096x128_1_0_0_1_n_n.rhsBatch by decide), dif_pos (show (1 : Fin Cert.KernelIdeal.S128x128.rank) ∈ Cert.KernelIdeal.dot_S4096x128_S128x128_S4096x128_1_0_0_1_n_n.rhsNonContracting by decide)]
  rfl

/-- A `[4096,128] × [128,128]` product into the zero accumulator reads, at `(r, d)`, the sum over the inner index. -/
theorem matmul_row (A : FVec Ideal Cert.KernelIdeal.S4096x128 .bf16) (B : FVec Ideal Cert.KernelIdeal.S128x128 .bf16)
    (r : Fin 4096) (d : Fin 128) :
    matmul Cert.KernelIdeal.dot_S4096x128_S128x128_S4096x128_1_0_0_1_n_n none A B (constant (F := Ideal) Cert.KernelIdeal.S4096x128 .f32 0x00000000#32) (ix2 r d)
      = ∑ k : Fin 128, A (ix2 r k) * B (ix2 k d) := by
  simp only [matmul]
  rw [Ideal.matmul_constant_zero_apply, ← Equiv.sum_comp (contrEquiv1 Cert.KernelIdeal.dot_S4096x128_S128x128_S4096x128_1_0_0_1_n_n 128 rfl rfl).symm]
  refine Finset.sum_congr rfl fun k _ => ?_
  have hk := contrEquiv1_symm_val Cert.KernelIdeal.dot_S4096x128_S128x128_S4096x128_1_0_0_1_n_n 128 rfl rfl k
  have el : Cert.KernelIdeal.dot_S4096x128_S128x128_S4096x128_1_0_0_1_n_n.lhsIdx (ix2 r d) ((contrEquiv1 Cert.KernelIdeal.dot_S4096x128_S128x128_S4096x128_1_0_0_1_n_n 128 rfl rfl).symm k) = ix2 r k := funext fun a => Fin.ext (by
    match a with
    | ⟨0, _⟩ => exact kdot_lhs_0 _ _
    | ⟨1, _⟩ => exact (kdot_lhs_1 _ _).trans hk)
  have er : Cert.KernelIdeal.dot_S4096x128_S128x128_S4096x128_1_0_0_1_n_n.rhsIdx (ix2 r d) ((contrEquiv1 Cert.KernelIdeal.dot_S4096x128_S128x128_S4096x128_1_0_0_1_n_n 128 rfl rfl).symm k) = ix2 k d := funext fun a => Fin.ext (by
    match a with
    | ⟨0, _⟩ => exact (kdot_rhs_0 _ _).trans hk
    | ⟨1, _⟩ => exact kdot_rhs_1 _ _)
  rw [el, er]

/-! ## The kernel's four payloads at an index -/

/-- The scaled value row: `(a / (norm + ε)) · (e₀·Wvᵀ[0,c] + e₁·Wvᵀ[1,c])`. -/
theorem pay2_apply (egv : Vec Ideal S4096x2 .f32) (wvt : Vec Ideal S2x128 .f32) (ab nb : Vec Ideal S4096 .f32)
    (r : Fin 4096) (e : Fin 128) :
    Cert.KernelIdeal.Gen.k1_pay2 (F := Ideal) egv wvt ab nb (ix2 r e)
      = Ideal.div (ab (ix1 r)) (nb (ix1 r) + Ideal.ofBits .f32 0x322BCC77#32)
          * (egv (ix2 r (0 : Fin 2)) * wvt (ix2 (0 : Fin 2) e) + egv (ix2 r (1 : Fin 2)) * wvt (ix2 (1 : Fin 2) e)) := by
  unfold Cert.KernelIdeal.Gen.k1_pay2
  simp only [mulf_apply, addf_apply, divf_apply, broadcast_apply, broadcastTo_a1_ab_apply, broadcastTo_1b_ab_apply,
    shapeCast_a_a1_apply, shapeCast_self]
  rw [slice2_axis1_apply 0 egv _ r (0 : Fin 1) (0 : Fin 2) rfl, slice2_axis1_apply 1 egv _ r (0 : Fin 1) (1 : Fin 2) rfl,
    slice2_axis0_apply 0 wvt _ (0 : Fin 1) e (0 : Fin 2) rfl, slice2_axis0_apply 1 wvt _ (0 : Fin 1) e (1 : Fin 2) rfl]
  rfl

/-- The second bias, broadcast over the rows. -/
theorem pay4_apply (b2v : Vec Ideal S128 .f32) (r : Fin 4096) (e : Fin 128) :
    Cert.KernelIdeal.Gen.k1_pay4 (F := Ideal) b2v (ix2 r e) = b2v (ix1 e) := by
  unfold Cert.KernelIdeal.Gen.k1_pay4
  rw [broadcastTo_1b_ab_apply, shapeCast_a_1a_apply]

/-- The two-layer block before its second bias: `silu(silu(x)·W1ᵀ + b1)·W2ᵀ`, `x` the scaled value row. -/
theorem pay3_apply (egv : Vec Ideal S4096x2 .f32) (wvt : Vec Ideal S2x128 .f32) (ab nb : Vec Ideal S4096 .f32)
    (w1t : Vec Ideal S128x128 .bf16) (b1v : Vec Ideal S128 .f32) (w2t : Vec Ideal S128x128 .bf16)
    (r : Fin 4096) (e : Fin 128) :
    Cert.KernelIdeal.Gen.k1_pay3 (F := Ideal) egv wvt ab nb w1t b1v w2t (ix2 r e)
      = ∑ j : Fin 128, silu ((∑ k : Fin 128,
            silu (Cert.KernelIdeal.Gen.k1_pay2 (F := Ideal) egv wvt ab nb (ix2 r k)) * w1t (ix2 k j)) + b1v (ix1 j))
          * w2t (ix2 j e) := by
  unfold Cert.KernelIdeal.Gen.k1_pay3
  simp only [shapeCast_self]
  refine (matmul_row _ _ r e).trans (Finset.sum_congr rfl fun j _ => ?_)
  rw [truncf_apply, mulf_logistic_apply, addf_apply, broadcastTo_1b_ab_apply, shapeCast_a_1a_apply]
  refine congrArg (fun t => silu (t + b1v (ix1 j)) * w2t (ix2 j e)) ?_
  refine (matmul_row _ _ r j).trans (Finset.sum_congr rfl fun k _ => ?_)
  rw [truncf_apply, mulf_logistic_apply]

/-- The output row: `silu(x + (m + b))·Woutᵀ`, for any three arrays `x`, `m`, `b`. -/
theorem pay1_apply (x m b : FVec Ideal S4096x128 .f32) (woutt : Vec Ideal S128x128 .bf16) (r : Fin 4096) (d : Fin 128) :
    Cert.KernelIdeal.Gen.k1_pay1 (F := Ideal) x m b woutt (ix2 r d)
      = ∑ j : Fin 128, silu (x (ix2 r j) + (m (ix2 r j) + b (ix2 r j))) * woutt (ix2 j d) := by
  unfold Cert.KernelIdeal.Gen.k1_pay1
  simp only [shapeCast_self]
  refine (matmul_row _ _ r d).trans (Finset.sum_congr rfl fun j _ => ?_)
  rw [truncf_apply, mulf_logistic_apply, addf_apply, addf_apply]

/-! ## The reference's stages at an index -/

section Reference
variable (atom : (⟨S500000x128, .f32⟩ : BufTy).Contents (Elt Ideal)) (Q : (⟨S4096, .f32⟩ : BufTy).Contents (Elt Ideal))
  (seg : (⟨S500000, .i32⟩ : BufTy).Contents (Elt Ideal)) (Wq : (⟨S128x128, .f32⟩ : BufTy).Contents (Elt Ideal))
  (bq : (⟨S128, .f32⟩ : BufTy).Contents (Elt Ideal)) (Wk : (⟨S128x2, .f32⟩ : BufTy).Contents (Elt Ideal))
  (Wv : (⟨S128x2, .f32⟩ : BufTy).Contents (Elt Ideal)) (W1 : (⟨S128x128, .f32⟩ : BufTy).Contents (Elt Ideal))
  (b1 : (⟨S128, .f32⟩ : BufTy).Contents (Elt Ideal)) (W2 : (⟨S128x128, .f32⟩ : BufTy).Contents (Elt Ideal))
  (b2 : (⟨S128, .f32⟩ : BufTy).Contents (Elt Ideal)) (Wout : (⟨S128x128, .f32⟩ : BufTy).Contents (Elt Ideal))

/-- The scaled value row of atom `n`: `(a / (norm + ε)) · v`. -/
theorem ref_x (n : Fin 500000) (e : Fin 128) :
    val_main_v51 (F := Ideal) atom Q seg Wq bq Wk Wv (ix2 n e)
      = Ideal.div (val_main_v35 (F := Ideal) atom Q seg Wq bq Wk (ix1 n))
            (val_main_v45 (F := Ideal) atom Q seg Wq bq Wk (ix1 n) + Ideal.ofBits .f32 0x322BCC77#32)
          * val_main_v30 (F := Ideal) Q seg Wv (ix2 n e) := by
  have e1 : idx_main_v49 (idx_main_v50 (ix2 n e)) = ix1 n := funext fun a => Fin.ext (by match a with | ⟨0, _⟩ => rfl)
  rw [val_main_v51_apply, val_main_v50_apply, val_main_v49_apply, val_main_v48_apply, val_main_v47_apply,
    val_main_v46_apply, val_main_cst_8_apply, e1]
  rfl

/-- The first `silu` of the reference, spelt with negate, exponential, add and divide. -/
theorem ref_silu_x (i : S500000x128.Idx) :
    val_main_v52 (F := Ideal) atom Q seg Wq bq Wk Wv i = silu (val_main_v51 (F := Ideal) atom Q seg Wq bq Wk Wv i) := by
  rw [val_main_v52_apply, val_main_call2_v5_apply, val_main_call2_v4_apply, val_main_call2_cst_0_apply,
    val_main_call2_v3_apply, val_main_call2_v2_apply, val_main_call2_cst_apply, val_main_call2_v1_apply,
    val_main_call2_v0_apply]
  exact host_silu _

/-- The second. -/
theorem ref_silu_h1 (i : S500000x128.Idx) :
    val_main_v58 (F := Ideal) atom Q seg Wq bq Wk Wv W1 b1 i
      = silu (val_main_v57 (F := Ideal) atom Q seg Wq bq Wk Wv W1 b1 i) := by
  rw [val_main_v58_apply, val_main_call3_v5_apply, val_main_call3_v4_apply, val_main_call3_cst_0_apply,
    val_main_call3_v3_apply, val_main_call3_v2_apply, val_main_call3_cst_apply, val_main_call3_v1_apply,
    val_main_call3_v0_apply]
  exact host_silu _

/-- The third. -/
theorem ref_silu_h (i : S500000x128.Idx) :
    val_main_v65 (F := Ideal) atom Q seg Wq bq Wk Wv W1 b1 W2 b2 i
      = silu (val_main_v64 (F := Ideal) atom Q seg Wq bq Wk Wv W1 b1 W2 b2 i) := by
  rw [val_main_v65_apply, val_main_call4_v5_apply, val_main_call4_v4_apply, val_main_call4_cst_0_apply,
    val_main_call4_v3_apply, val_main_call4_v2_apply, val_main_call4_cst_apply, val_main_call4_v1_apply,
    val_main_call4_v0_apply]
  exact host_silu _

/-- The first layer: `silu(x)·W1ᵀ + b1`. -/
theorem ref_h1 (n : Fin 500000) (e : Fin 128) :
    val_main_v57 (F := Ideal) atom Q seg Wq bq Wk Wv W1 b1 (ix2 n e)
      = (∑ k : Fin 128, silu (val_main_v51 (F := Ideal) atom Q seg Wq bq Wk Wv (ix2 n k)) * W1 (ix2 e k)) + b1 (ix1 e) := by
  have eb : idx_main_v55 (idx_main_v56 (ix2 n e)) = ix1 e := funext fun a => Fin.ext (by match a with | ⟨0, _⟩ => rfl)
  rw [val_main_v57_apply, val_main_v54_apply, val_main_v56_apply, val_main_v55_apply, eb]
  refine congrArg (· + b1 (ix1 e)) (Finset.sum_congr rfl fun k _ => ?_)
  have el : lidx_main_v54 (ix2 n e) k = ix2 n k :=
    funext fun a => Fin.ext (by match a with | ⟨0, _⟩ => rfl | ⟨1, _⟩ => rfl)
  have er : idx_main_v53 (ridx_main_v54 (ix2 n e) k) = ix2 e k :=
    funext fun a => Fin.ext (by match a with | ⟨0, _⟩ => rfl | ⟨1, _⟩ => rfl)
  rw [val_main_v53_apply, el, er, ref_silu_x]

/-- The residual block: `(x + silu(h1)·W2ᵀ) + b2`. -/
theorem ref_h (n : Fin 500000) (e : Fin 128) :
    val_main_v64 (F := Ideal) atom Q seg Wq bq Wk Wv W1 b1 W2 b2 (ix2 n e)
      = (val_main_v51 (F := Ideal) atom Q seg Wq bq Wk Wv (ix2 n e)
          + ∑ k : Fin 128, silu (val_main_v57 (F := Ideal) atom Q seg Wq bq Wk Wv W1 b1 (ix2 n k)) * W2 (ix2 e k))
        + b2 (ix1 e) := by
  have eb : idx_main_v62 (idx_main_v63 (ix2 n e)) = ix1 e := funext fun a => Fin.ext (by match a with | ⟨0, _⟩ => rfl)
  rw [val_main_v64_apply, val_main_v61_apply, val_main_v60_apply, val_main_v63_apply, val_main_v62_apply, eb]
  refine congrArg (fun t => (val_main_v51 (F := Ideal) atom Q seg Wq bq Wk Wv (ix2 n e) + t) + b2 (ix1 e))
    (Finset.sum_congr rfl fun k _ => ?_)
  have el : lidx_main_v60 (ix2 n e) k = ix2 n k :=
    funext fun a => Fin.ext (by match a with | ⟨0, _⟩ => rfl | ⟨1, _⟩ => rfl)
  have er : idx_main_v59 (ridx_main_v60 (ix2 n e) k) = ix2 e k :=
    funext fun a => Fin.ext (by match a with | ⟨0, _⟩ => rfl | ⟨1, _⟩ => rfl)
  rw [val_main_v59_apply, el, er, ref_silu_h1]

/-- The output row: `silu(h)·Woutᵀ`. -/
theorem ref_out (n : Fin 500000) (d : Fin 128) :
    val_main_v67 (F := Ideal) atom Q seg Wq bq Wk Wv W1 b1 W2 b2 Wout (ix2 n d)
      = ∑ k : Fin 128, silu (val_main_v64 (F := Ideal) atom Q seg Wq bq Wk Wv W1 b1 W2 b2 (ix2 n k)) * Wout (ix2 d k) := by
  rw [val_main_v67_apply]
  refine Finset.sum_congr rfl fun k _ => ?_
  have el : lidx_main_v67 (ix2 n d) k = ix2 n k :=
    funext fun a => Fin.ext (by match a with | ⟨0, _⟩ => rfl | ⟨1, _⟩ => rfl)
  have er : idx_main_v66 (ridx_main_v67 (ix2 n d) k) = ix2 d k :=
    funext fun a => Fin.ext (by match a with | ⟨0, _⟩ => rfl | ⟨1, _⟩ => rfl)
  rw [val_main_v66_apply, el, er, ref_silu_h]

/-- The value row of table row `ρ`: `e₀·Wv[c,0] + e₁·Wv[c,1]`. -/
theorem ref_v (ρ : Fin 4096) (e : Fin 128) :
    val_main_v23 (F := Ideal) Q Wv (ix2 ρ e)
      = val_main_v9 (F := Ideal) Q (ix2 ρ (0 : Fin 2)) * Wv (ix2 e (0 : Fin 2))
        + val_main_v9 (F := Ideal) Q (ix2 ρ (1 : Fin 2)) * Wv (ix2 e (1 : Fin 2)) := by
  have el : ∀ k : Fin 2, lidx_main_v23 (ix2 ρ e) k = ix2 ρ k := fun k =>
    funext fun a => Fin.ext (by match a with | ⟨0, _⟩ => rfl | ⟨1, _⟩ => rfl)
  have er : ∀ k : Fin 2, idx_main_v22 (ridx_main_v23 (ix2 ρ e) k) = ix2 e k := fun k =>
    funext fun a => Fin.ext (by match a with | ⟨0, _⟩ => rfl | ⟨1, _⟩ => rfl)
  rw [val_main_v23_apply, Fin.sum_univ_two, val_main_v22_apply, val_main_v22_apply, el, el, er, er]

end Reference

/-! ## One row of the kernel against the reference -/

theorem out_row (atom : (⟨S500000x128, .f32⟩ : BufTy).Contents (Elt Ideal)) (Q : (⟨S4096, .f32⟩ : BufTy).Contents (Elt Ideal))
    (seg : (⟨S500000, .i32⟩ : BufTy).Contents (Elt Ideal)) (Wq : (⟨S128x128, .f32⟩ : BufTy).Contents (Elt Ideal))
    (bq : (⟨S128, .f32⟩ : BufTy).Contents (Elt Ideal)) (Wk : (⟨S128x2, .f32⟩ : BufTy).Contents (Elt Ideal))
    (Wv : (⟨S128x2, .f32⟩ : BufTy).Contents (Elt Ideal)) (W1 : (⟨S128x128, .f32⟩ : BufTy).Contents (Elt Ideal))
    (b1 : (⟨S128, .f32⟩ : BufTy).Contents (Elt Ideal)) (W2 : (⟨S128x128, .f32⟩ : BufTy).Contents (Elt Ideal))
    (b2 : (⟨S128, .f32⟩ : BufTy).Contents (Elt Ideal)) (Wout : (⟨S128x128, .f32⟩ : BufTy).Contents (Elt Ideal))
    (ab nb : Vec Ideal S4096 .f32) (egv : Vec Ideal S4096x2 .f32) (wvt : Vec Ideal S2x128 .f32)
    (w1t : Vec Ideal S128x128 .bf16) (b1v : Vec Ideal S128 .f32) (w2t : Vec Ideal S128x128 .bf16)
    (b2v : Vec Ideal S128 .f32) (woutt : Vec Ideal S128x128 .bf16)
    (n : Fin 500000) (r ρ : Fin 4096) (d : Fin 128)
    (ha : ab (ix1 r) = val_main_v35 (F := Ideal) atom Q seg Wq bq Wk (ix1 n))
    (hn : nb (ix1 r) = val_main_v45 (F := Ideal) atom Q seg Wq bq Wk (ix1 n))
    (hegv : ∀ j : Fin 2, egv (ix2 r j) = val_main_v9 (F := Ideal) Q (ix2 ρ j))
    (hgv : ∀ e : Fin 128, val_main_v30 (F := Ideal) Q seg Wv (ix2 n e) = val_main_v23 (F := Ideal) Q Wv (ix2 ρ e))
    (hwvt : ∀ (j : Fin 2) (e : Fin 128), wvt (ix2 j e) = Wv (ix2 e j))
    (hw1t : ∀ j e : Fin 128, w1t (ix2 j e) = W1 (ix2 e j))
    (hb1 : ∀ e : Fin 128, b1v (ix1 e) = b1 (ix1 e))
    (hw2t : ∀ j e : Fin 128, w2t (ix2 j e) = W2 (ix2 e j))
    (hb2 : ∀ e : Fin 128, b2v (ix1 e) = b2 (ix1 e))
    (hwoutt : ∀ j e : Fin 128, woutt (ix2 j e) = Wout (ix2 e j)) :
    Cert.KernelIdeal.Gen.k1_pay1 (F := Ideal)
        (Cert.KernelIdeal.Gen.k1_pay2 (F := Ideal) egv wvt ab nb)
        (Cert.KernelIdeal.Gen.k1_pay3 (F := Ideal) egv wvt ab nb w1t b1v w2t)
        (Cert.KernelIdeal.Gen.k1_pay4 (F := Ideal) b2v) woutt (ix2 r d)
      = val_main_v67 (F := Ideal) atom Q seg Wq bq Wk Wv W1 b1 W2 b2 Wout (ix2 n d) := by
  -- the scaled value row: the kernel's row r is the reference's row n
  have x_eq : ∀ e : Fin 128, Cert.KernelIdeal.Gen.k1_pay2 (F := Ideal) egv wvt ab nb (ix2 r e)
      = val_main_v51 (F := Ideal) atom Q seg Wq bq Wk Wv (ix2 n e) := fun e => by
    rw [pay2_apply, ref_x, ha, hn, hgv e, ref_v, hegv 0, hegv 1, hwvt 0 e, hwvt 1 e]
  -- the first layer
  have h1_eq : ∀ e : Fin 128,
      (∑ k : Fin 128, silu (Cert.KernelIdeal.Gen.k1_pay2 (F := Ideal) egv wvt ab nb (ix2 r k)) * w1t (ix2 k e)) + b1v (ix1 e)
        = val_main_v57 (F := Ideal) atom Q seg Wq bq Wk Wv W1 b1 (ix2 n e) := fun e => by
    rw [ref_h1, hb1 e]
    exact congrArg (· + b1 (ix1 e)) (Finset.sum_congr rfl fun k _ => by rw [x_eq k, hw1t k e])
  -- the residual block: the kernel adds x + (m + b2), the reference (x + m) + b2
  have h_eq : ∀ e : Fin 128,
      Cert.KernelIdeal.Gen.k1_pay2 (F := Ideal) egv wvt ab nb (ix2 r e)
        + (Cert.KernelIdeal.Gen.k1_pay3 (F := Ideal) egv wvt ab nb w1t b1v w2t (ix2 r e)
            + Cert.KernelIdeal.Gen.k1_pay4 (F := Ideal) b2v (ix2 r e))
        = val_main_v64 (F := Ideal) atom Q seg Wq bq Wk Wv W1 b1 W2 b2 (ix2 n e) := fun e => by
    rw [ref_h, pay4_apply, hb2 e, pay3_apply, x_eq e, ← add_assoc]
    exact congrArg (fun t => (val_main_v51 (F := Ideal) atom Q seg Wq bq Wk Wv (ix2 n e) + t) + b2 (ix1 e))
      (Finset.sum_congr rfl fun k _ => by rw [h1_eq k, hw2t k e])
  rw [pay1_apply, ref_out]
  exact Finset.sum_congr rfl fun k _ => by rw [h_eq k, hwoutt k d]

end Cert.Bridge

end
-- ==== Proof.KernelOut.lean ====
/-
  The second region's result, and the kernel's. Grid point t stages rows 4096·t … of the padded weight and segment-sum
  arrays and of the padded gathered value features, and the whole transposed weights and biases; it writes back rows
  4096·t … of the padded output. Row n < 500000 of the output is the reference's row n by the row lemma; the host's
  last operation cuts the output back to the 500000 atoms.
-/
import proofs.«114423_j17179869975_2_alg».proof.Proof.Gen.KernelIdeal.Frame
import proofs.«114423_j17179869975_2_alg».proof.Proof.Gen.ReferenceIdeal.Read
import proofs.«114423_j17179869975_2_alg».proof.Proof.KernelMid
import proofs.«114423_j17179869975_2_alg».proof.Proof.OutRow
import Idealize.ShloMosaic.Lib.StableHlo.Run
import Idealize.ShloMosaic.Lib.Pipeline.Value
import Idealize.ShloMosaic.Lib.ValueIdx

set_option maxRecDepth 16384

noncomputable section

namespace Cert.KernelIdeal.Val

open Cert.KernelIdeal Cert.KernelIdeal.Gen Cert.Bridge Cert.ReferenceIdeal.Read
open Idealize.ShloMosaic Idealize.ShloMosaic.TcCoe Idealize.SL.Sem Idealize.ShloMosaic.StableHlo Idealize.ShloMosaic.ValueIdx
open Idealize.ShloMosaic.Pipeline (Dat Cfg Window)

variable (m : (ℓ : Loc nD τ sig) → Buf (Elt Ideal) ℓ) (ρ : Dev nD → PrngReg)

section Blocks
variable (V : (c : Dev nD) → (b : Ref sig .tc) → Buf (Elt Ideal) ((c : Thread nD τ).loc b))

/-- The printed index maps over the grid: the row-blocked windows are at block t, the weights and biases at block 0. -/
theorem idx1 : ∀ t : Fin cfg1.N, win1_0.index t (0 : Fin 1) = t.val ∧ win1_1.index t (0 : Fin 1) = t.val
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 1) = 0
    ∧ win1_6.index t (0 : Fin 2) = 0 ∧ win1_6.index t (1 : Fin 2) = 0
    ∧ win1_7.index t (0 : Fin 1) = 0
    ∧ win1_8.index t (0 : Fin 2) = 0 ∧ win1_8.index t (1 : Fin 2) = 0
    ∧ win1_9.index t (0 : Fin 2) = t.val ∧ win1_9.index t (1 : Fin 2) = 0 :=
  (by decide +kernel : ∀ t : Fin grid1.N, _)

theorem row_lt1 (t : Fin cfg1.N) (r : Fin 4096) : t.val * 4096 + r.val < 503808 := by
  have h := t.isLt
  have hN : cfg1.N = 123 := N_1
  have := r.isLt; omega

theorem blk1_0 (c : Dev nD) (t : Fin cfg1.N) (r : Fin 4096) :
    iblk1 V c 0 t (ix1 r) = (V c main_v47 : S503808.Idx → EReal) (ix1 ⟨t.val * 4096 + r.val, row_lt1 t r⟩) := by
  show V c main_v47 (((cfg1.win 0).blk t).view.emb (ix1 r)) = _
  have e0 := (idx1 t).1
  refine congrArg _ (funext fun a => Fin.ext ?_)
  match a with
  | ⟨0, _⟩ => show win1_0.index t (0 : Fin 1) * 4096 + 1 * r.val = t.val * 4096 + r.val; rw [e0]; omega

theorem blk1_1 (c : Dev nD) (t : Fin cfg1.N) (r : Fin 4096) :
    iblk1 V c 1 t (ix1 r) = (V c main_v48 : S503808.Idx → EReal) (ix1 ⟨t.val * 4096 + r.val, row_lt1 t r⟩) := by
  show V c main_v48 (((cfg1.win 1).blk t).view.emb (ix1 r)) = _
  have e0 := (idx1 t).2.1
  refine congrArg _ (funext fun a => Fin.ext ?_)
  match a with
  | ⟨0, _⟩ => show win1_1.index t (0 : Fin 1) * 4096 + 1 * r.val = t.val * 4096 + r.val; rw [e0]; omega

theorem blk1_2 (c : Dev nD) (t : Fin cfg1.N) (r : Fin 4096) (j : Fin 2) :
    iblk1 V c 2 t (ix2 r j) = (V c main_v23 : S503808x2.Idx → EReal) (ix2 ⟨t.val * 4096 + r.val, row_lt1 t r⟩ j) := by
  show V c main_v23 (((cfg1.win 2).blk t).view.emb (ix2 r j)) = _
  have e0 := (idx1 t).2.2.1
  have e1 := (idx1 t).2.2.2.1
  refine congrArg _ (funext fun a => Fin.ext ?_)
  match a with
  | ⟨0, _⟩ => show win1_2.index t (0 : Fin 2) * 4096 + 1 * r.val = t.val * 4096 + r.val; rw [e0]; omega
  | ⟨1, _⟩ => show win1_2.index t (1 : Fin 2) * 2 + 1 * j.val = j.val; rw [e1]; omega

theorem blk1_3 (c : Dev nD) (t : Fin cfg1.N) (j : Fin 2) (d : Fin 128) :
    iblk1 V c 3 t (ix2 j d) = (V c main_v26 : S2x128.Idx → EReal) (ix2 j d) := by
  show V c main_v26 (((cfg1.win 3).blk t).view.emb (ix2 j d)) = _
  have e0 := (idx1 t).2.2.2.2.1
  have e1 := (idx1 t).2.2.2.2.2.1
  refine congrArg _ (funext fun a => Fin.ext ?_)
  match a with
  | ⟨0, _⟩ => show win1_3.index t (0 : Fin 2) * 2 + 1 * j.val = j.val; rw [e0]; omega
  | ⟨1, _⟩ => show win1_3.index t (1 : Fin 2) * 128 + 1 * d.val = d.val; rw [e1]; omega

theorem blk1_4 (c : Dev nD) (t : Fin cfg1.N) (j : Fin 128) (d : Fin 128) :
    iblk1 V c 4 t (ix2 j d) = (V c main_v30 : S128x128.Idx → EReal) (ix2 j d) := by
  show V c main_v30 (((cfg1.win 4).blk t).view.emb (ix2 j d)) = _
  have e0 := (idx1 t).2.2.2.2.2.2.1
  have e1 := (idx1 t).2.2.2.2.2.2.2.1
  refine congrArg _ (funext fun a => Fin.ext ?_)
  match a with
  | ⟨0, _⟩ => show win1_4.index t (0 : Fin 2) * 128 + 1 * j.val = j.val; rw [e0]; omega
  | ⟨1, _⟩ => show win1_4.index t (1 : Fin 2) * 128 + 1 * d.val = d.val; rw [e1]; omega

theorem blk1_5 (c : Dev nD) (t : Fin cfg1.N) (d : Fin 128) :
    iblk1 V c 5 t (ix1 d) = (V c main_arg8 : S128.Idx → EReal) (ix1 d) := by
  show V c main_arg8 (((cfg1.win 5).blk t).view.emb (ix1 d)) = _
  have e0 := (idx1 t).2.2.2.2.2.2.2.2.1
  refine congrArg _ (funext fun a => Fin.ext ?_)
  match a with
  | ⟨0, _⟩ => show win1_5.index t (0 : Fin 1) * 128 + 1 * d.val = d.val; rw [e0]; omega

theorem blk1_6 (c : Dev nD) (t : Fin cfg1.N) (j : Fin 128) (d : Fin 128) :
    iblk1 V c 6 t (ix2 j d) = (V c main_v32 : S128x128.Idx → EReal) (ix2 j d) := by
  show V c main_v32 (((cfg1.win 6).blk t).view.emb (ix2 j d)) = _
  have e0 := (idx1 t).2.2.2.2.2.2.2.2.2.1
  have e1 := (idx1 t).2.2.2.2.2.2.2.2.2.2.1
  refine congrArg _ (funext fun a => Fin.ext ?_)
  match a with
  | ⟨0, _⟩ => show win1_6.index t (0 : Fin 2) * 128 + 1 * j.val = j.val; rw [e0]; omega
  | ⟨1, _⟩ => show win1_6.index t (1 : Fin 2) * 128 + 1 * d.val = d.val; rw [e1]; omega

theorem blk1_7 (c : Dev nD) (t : Fin cfg1.N) (d : Fin 128) :
    iblk1 V c 7 t (ix1 d) = (V c main_arg10 : S128.Idx → EReal) (ix1 d) := by
  show V c main_arg10 (((cfg1.win 7).blk t).view.emb (ix1 d)) = _
  have e0 := (idx1 t).2.2.2.2.2.2.2.2.2.2.2.1
  refine congrArg _ (funext fun a => Fin.ext ?_)
  match a with
  | ⟨0, _⟩ => show win1_7.index t (0 : Fin 1) * 128 + 1 * d.val = d.val; rw [e0]; omega

theorem blk1_8 (c : Dev nD) (t : Fin cfg1.N) (j : Fin 128) (d : Fin 128) :
    iblk1 V c 8 t (ix2 j d) = (V c main_v34 : S128x128.Idx → EReal) (ix2 j d) := by
  show V c main_v34 (((cfg1.win 8).blk t).view.emb (ix2 j d)) = _
  have e0 := (idx1 t).2.2.2.2.2.2.2.2.2.2.2.2.1
  have e1 := (idx1 t).2.2.2.2.2.2.2.2.2.2.2.2.2.1
  refine congrArg _ (funext fun a => Fin.ext ?_)
  match a with
  | ⟨0, _⟩ => show win1_8.index t (0 : Fin 2) * 128 + 1 * j.val = j.val; rw [e0]; omega
  | ⟨1, _⟩ => show win1_8.index t (1 : Fin 2) * 128 + 1 * d.val = d.val; rw [e1]; omega

/-- What point t writes back is the body's payload of the point's input blocks. -/
theorem flushed1 (c : Dev nD) (t : Fin cfg1.N) :
    (dat1 V c).flushed 9 t
      = k1_pay1 (k1_pay2 (iblk1 V c 2 t) (iblk1 V c 3 t) (iblk1 V c 0 t) (iblk1 V c 1 t))
          (k1_pay3 (iblk1 V c 2 t) (iblk1 V c 3 t) (iblk1 V c 0 t) (iblk1 V c 1 t) (iblk1 V c 4 t) (iblk1 V c 5 t) (iblk1 V c 6 t))
          (k1_pay4 (iblk1 V c 7 t)) (iblk1 V c 8 t) := by
  show (cfg1.win 9).cut (grid1.coords t) ((dat1 V c).after 9 t) = _
  rw [after1_9]
  unfold out1_9
  rw [View.canon_unit_zero hz2]
  simp only [View.ld_unit_zero (S := S4096x2) hz2, View.ld_unit_zero (S := S2x128) hz2, View.ld_unit_zero (S := S4096) hz1,
    View.ld_unit_zero (S := S128x128) hz2, View.ld_unit_zero (S := S128) hz1]
  rfl

/-- An index of the padded output is in point t's block iff its row is among the block's 4096 rows. -/
theorem mem_blk1_9 (t : Fin cfg1.N) (i : S503808x128.Idx) :
    i ∈ ((cfg1.win 9).blk t).view.set ↔ ∀ a : Fin 2, win1_9.index t a * S4096x128.size a ≤ (i a).val ∧ (i a).val < win1_9.index t a * S4096x128.size a + S4096x128.size a := by
  show i ∈ ((View.whole main_v49).slice (win1_9.rect t)).set ↔ _
  rw [View.set_slice_whole, Rect.mem_set_unit]
  exact Iff.rfl

/-- Every element of the padded output is in the block of the point numbered by its row divided by 4096. -/
theorem cover1 (i : S503808x128.Idx) : ∃ t : Fin cfg1.N, (cfg1.win 9).flush t = true ∧ i ∈ ((cfg1.win 9).blk t).view.set := by
  have hi : (i 0).val < 503808 := (i 0).isLt
  have hi1 : (i 1).val < 128 := (i 1).isLt
  have hN : cfg1.N = 123 := N_1
  refine ⟨⟨(i 0).val / 4096, by rw [hN]; omega⟩, flush1_9 _, ?_⟩
  rw [mem_blk1_9]
  intro a
  have e0 := (idx1 ⟨(i 0).val / 4096, by rw [hN]; omega⟩).2.2.2.2.2.2.2.2.2.2.2.2.2.2.1
  have e1 := (idx1 ⟨(i 0).val / 4096, by rw [hN]; omega⟩).2.2.2.2.2.2.2.2.2.2.2.2.2.2.2
  match a with
  | ⟨0, _⟩ =>
    show win1_9.index ⟨(i 0).val / 4096, _⟩ (0 : Fin 2) * 4096 ≤ (i 0).val ∧ (i 0).val < win1_9.index ⟨(i 0).val / 4096, _⟩ (0 : Fin 2) * 4096 + 4096
    rw [e0]; show (i 0).val / 4096 * 4096 ≤ (i 0).val ∧ (i 0).val < (i 0).val / 4096 * 4096 + 4096; omega
  | ⟨1, _⟩ =>
    show win1_9.index ⟨(i 0).val / 4096, _⟩ (1 : Fin 2) * 128 ≤ (i 1).val ∧ (i 1).val < win1_9.index ⟨(i 0).val / 4096, _⟩ (1 : Fin 2) * 128 + 128
    rw [e1]; omega

end Blocks

/-! ## The padded output after the region -/

/-- Element (r, d) of what point t writes back is the reference's result at atom 4096·t + r, when that is an atom. -/
theorem out_elem (c : Dev nD) (t : Fin cfg1.N) (r : Fin 4096) (d : Fin 128) (h : t.val * 4096 + r.val < 500000) :
    (dat1 (V14 m ρ) c).flushed 9 t (ix2 r d)
      = val_main_v67 (F := Ideal) (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10)) (m ((c : Thread nD τ).loc main_arg11)) (ix2 ⟨t.val * 4096 + r.val, h⟩ d) := by
  rw [flushed1]
  refine out_row (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10)) (m ((c : Thread nD τ).loc main_arg11))
    (iblk1 (V14 m ρ) c 0 t) (iblk1 (V14 m ρ) c 1 t) (iblk1 (V14 m ρ) c 2 t) (iblk1 (V14 m ρ) c 3 t) (iblk1 (V14 m ρ) c 4 t)
    (iblk1 (V14 m ρ) c 5 t) (iblk1 (V14 m ρ) c 6 t) (iblk1 (V14 m ρ) c 7 t) (iblk1 (V14 m ρ) c 8 t)
    ⟨t.val * 4096 + r.val, h⟩ r (gRow (val_main_v29 (F := Ideal) (m ((c : Thread nD τ).loc main_arg2))) ⟨t.val * 4096 + r.val, h⟩) d
    ?_ ?_ ?_ ?_ ?_ ?_ ?_ ?_ ?_ ?_
  · rw [blk1_0, V14_a]
    refine (pad_rows1 _ _ ⟨t.val * 4096 + r.val, h⟩).trans ?_
    rw [aK_eq]
  · rw [blk1_1, V14_norm]
    refine (pad_rows1 _ _ ⟨t.val * 4096 + r.val, h⟩).trans ?_
    rw [aK_eq, segNorm_ref]
  · intro j
    rw [blk1_2, V14_egv]
    exact (pad_rows2 _ _ ⟨t.val * 4096 + r.val, h⟩ j).trans (gather2_apply _ _ _ j)
  · intro e
    unfold val_main_v30
    exact gather128_apply _ _ _ e
  · intro j e
    rw [blk1_3, V14_wvt]
    exact transpose_2x128_apply _ j e
  · intro j e
    rw [blk1_4, V14_w1t]
    exact (truncf_bf16_apply _ _).trans (transpose_128x128_apply _ j e)
  · intro e
    rw [blk1_5, V14_b1]
  · intro j e
    rw [blk1_6, V14_w2t]
    exact (truncf_bf16_apply _ _).trans (transpose_128x128_apply _ j e)
  · intro e
    rw [blk1_7, V14_b2]
  · intro j e
    rw [blk1_8, V14_woutt]
    exact (truncf_bf16_apply _ _).trans (transpose_128x128_apply _ j e)

/-- THE PADDED OUTPUT after the second region: row n < 500000 holds the reference's row n. -/
theorem out_final (c : Dev nD) (n : Fin 500000) (d : Fin 128) :
    ((dat1 (V14 m ρ) c).arrAt 9 cfg1.N : S503808x128.Idx → EReal) (ix2 (padRow n) d)
      = val_main_v67 (F := Ideal) (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10)) (m ((c : Thread nD τ).loc main_arg11)) (ix2 n d) := by
  have key := (dat1 (V14 m ρ) c).arrAt_forall_of_cover 9
    (fun (i : S503808x128.Idx) (v : EReal) => ∀ h : (i 0).val < 500000,
      v = val_main_v67 (F := Ideal) (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10)) (m ((c : Thread nD τ).loc main_arg11)) (ix2 ⟨(i 0).val, h⟩ ⟨(i 1).val, (i 1).isLt⟩))
    (fun t hf y h => by
      obtain ⟨r, d', rfl⟩ : ∃ (r : Fin 4096) (d' : Fin 128), y = ix2 r d' := ⟨y 0, y 1, eq_ix2 y⟩
      have e0 := (idx1 t).2.2.2.2.2.2.2.2.2.2.2.2.2.2.1
      have e1 := (idx1 t).2.2.2.2.2.2.2.2.2.2.2.2.2.2.2
      have hv : ((((cfg1.win 9).blk t).view.emb (ix2 r d')) 0).val = t.val * 4096 + r.val := by
        show win1_9.index t (0 : Fin 2) * 4096 + 1 * r.val = _
        rw [e0]; omega
      have hw : ((((cfg1.win 9).blk t).view.emb (ix2 r d')) 1).val = d'.val := by
        show win1_9.index t (1 : Fin 2) * 128 + 1 * d'.val = _
        rw [e1]; omega
      have h' : t.val * 4096 + r.val < 500000 := hv ▸ h
      rw [cast_eq]
      refine (out_elem m ρ c t r d' h').trans (congrArg _ ?_)
      funext a
      match a with
      | ⟨0, _⟩ => exact Fin.ext hv.symm
      | ⟨1, _⟩ => exact Fin.ext hw.symm)
    cover1 (ix2 (padRow n) d)
  exact key n.isLt

/-! ## The kernel's result -/

/-- THE KERNEL'S RESULT: the fold of @main leaves in the result buffer the reference's result, as one function of the
    argument arrays. -/
theorem kernel_value (c : Dev nD) :
    (W16 m ρ c (Proc.devRef .tc main_v50) : S500000x128.Idx → EReal)
      = val_main_v67 (F := Ideal) (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10)) (m ((c : Thread nD τ).loc main_arg11)) := by
  dsimp only [W16]
  after_results_simp
  rw [show W15 m ρ c (Proc.devRef .tc main_v49) = _ from W15_arr m ρ c 9]
  funext i
  obtain ⟨n, d, rfl⟩ : ∃ (n : Fin 500000) (d : Fin 128), i = ix2 n d := ⟨i 0, i 1, eq_ix2 i⟩
  rw [slice_rows128]
  exact out_final m ρ c n d

end Cert.KernelIdeal.Val

end
-- ==== Proof.lean ====
/-
  Equivalence over the extended reals of a two-kernel charge-attention layer against its plain reference.

  The program: per molecule b two charge features e(b) = relu(±Q(b)); per atom n a key k(n) = (e/max(e,1))(seg n)·Wkᵀ and a
  value v(n) = e(seg n)·Wvᵀ, the molecule's table row gathered by the atom's segment id; a query q(n) = x(n)·Wqᵀ + bq; the
  weight a(n) = softplus(⟨k(n), q(n)⟩ / √128); its sum over the atom's molecule; the scaled value
  s(n) = (a(n) / (Σ a + ε))·v(n); and the residual block out(n) = silu(s + (silu(silu(s)·W1ᵀ + b1)·W2ᵀ + b2))·Woutᵀ.

  The kernel gathers only the two features per atom and rebuilds k and v inside its bodies as e₀·W[:,0] + e₁·W[:,1]; the
  reference multiplies the (4096,2) table by the (2,128) weights first and gathers rows of the product. A gather reads the
  same table row either way, and a sum over two terms is those two terms. The first kernel multiplies by the reciprocal
  of the reference's divisor (the named constant, read as that exact reciprocal); on the extended reals dividing by a
  nonzero real is multiplying by its reciprocal. The second kernel adds s + (m + b2) where the reference adds (s + m) + b2:
  addition of extended reals is associative. Matrix products into a zero accumulator, lane sums and the host's dot and
  reduce are plain sums at the exact instance; rounding to bf16 is the identity there. No step needs finiteness.

  Both kernels run on 123 blocks of 4096 rows of arrays zero-padded from 500000 to 503808 rows; rows below 500000 of each
  result are the reference's rows (the padding rows are computed too, and cut away by the host). The segment sums lie
  between the two kernels and are taken by the same host operations on both sides, so equal weights give equal sums.
-/
import proofs.«114423_j17179869975_2_alg».proof.Defs
import proofs.«114423_j17179869975_2_alg».proof.Proof.Gen.Kernel
import proofs.«114423_j17179869975_2_alg».proof.Proof.Gen.Kernel.Skeleton
import proofs.«114423_j17179869975_2_alg».proof.Proof.Gen.Kernel.Launch
import proofs.«114423_j17179869975_2_alg».proof.Proof.Gen.Kernel.Points
import proofs.«114423_j17179869975_2_alg».proof.Proof.Gen.Kernel.Frame
import proofs.«114423_j17179869975_2_alg».proof.Proof.Gen.KernelIdeal
import proofs.«114423_j17179869975_2_alg».proof.Proof.Gen.KernelIdeal.Skeleton
import proofs.«114423_j17179869975_2_alg».proof.Proof.Gen.KernelIdeal.Launch
import proofs.«114423_j17179869975_2_alg».proof.Proof.Gen.KernelIdeal.Points
import proofs.«114423_j17179869975_2_alg».proof.Proof.Gen.KernelIdeal.Frame
import proofs.«114423_j17179869975_2_alg».proof.Proof.Gen.ReferenceIdeal
import proofs.«114423_j17179869975_2_alg».proof.Proof.Gen.ReferenceIdeal.Run
import proofs.«114423_j17179869975_2_alg».proof.Proof.Gen.ReferenceIdeal.Read
import proofs.«114423_j17179869975_2_alg».proof.Proof.Gen.Pre_finite_inputs
import proofs.«114423_j17179869975_2_alg».proof.Proof.KernelRun
import proofs.«114423_j17179869975_2_alg».proof.Proof.KernelOut
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference is a host program: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The one rewrite of the idealization: the first kernel's scale word is named, and the name's value is the exact
    reciprocal of the reference's divisor word. -/
theorem preserves : Cert.preserves_Kernel_KernelIdeal :=
  IdealRules.named_const.statement Cert.KernelIdeal.κ "inv_sqrt_d" .f32 0x3DB504F3#32 ((1048576 / 11863283 : ℝ) : EReal) rfl

/-- Both programs end with the reference's function of the argument arrays in their result buffers. -/
theorem algebraic : Cert.algebraic_KernelIdeal_ReferenceIdeal := by
  intro m ρ m' ρ' _ hagree
  refine ⟨fun c => Cert.ReferenceIdeal.Read.val_main_v67 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · exact (θ_run Cert.KernelIdeal.defs _ _).mono
      (fun r h c => ⟨(h c).1.trans (Cert.KernelIdeal.Val.kernel_value m ρ c), (h c).2⟩)
      (Cert.KernelIdeal.Run.run_result (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9, h10, h11⟩ := hagree c
    rw [Cert.ReferenceIdeal.Read.val_main_v67_eq, h0, h1, h2, h3, h4, h5, h6, h7, h8, h9, h10, h11]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
